-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S64x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S3300000x64 : Shape := ⟨2, ![3300000, 64]⟩
abbrev S1x64 : Shape := ⟨2, ![1, 64]⟩
abbrev S1x1 : Shape := ⟨2, ![1, 1]⟩

abbrev nBuf : Space → Nat
  | .hbm => 82
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .bf16⟩
  | .hbm, ⟨35, _⟩ => ⟨S3300000x1, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000x64, .bf16⟩
  | .hbm, ⟨45, _⟩ => ⟨S3300000x64, .f32⟩
  | .hbm, ⟨46, _⟩ => ⟨S3300000x64, .f32⟩
  | .hbm, ⟨47, _⟩ => ⟨S3300000x64, .f32⟩
  | .hbm, ⟨48, _⟩ => ⟨S_, .f32⟩
  | .hbm, ⟨49, _⟩ => ⟨S100000x64, .f32⟩
  | .hbm, ⟨50, _⟩ => ⟨S3300000x1, .i32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x1, .f32⟩
  | .hbm, ⟨61, _⟩ => ⟨S100000x1, .bf16⟩
  | .hbm, ⟨62, _⟩ => ⟨S3300000x1, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x1, .bf16⟩
  | .hbm, ⟨72, _⟩ => ⟨S3300000x1, .f32⟩
  | .hbm, ⟨73, _⟩ => ⟨S3300000x1, .f32⟩
  | .hbm, ⟨74, _⟩ => ⟨S_, .f32⟩
  | .hbm, ⟨75, _⟩ => ⟨S100000x1, .f32⟩
  | .hbm, ⟨76, _⟩ => ⟨S3300000x1, .i32⟩
  | .hbm, ⟨77, _⟩ => ⟨S100000x1, .f32⟩
  | .hbm, ⟨78, _⟩ => ⟨S100000x1, .f32⟩
  | .hbm, ⟨79, _⟩ => ⟨S1x1, .f32⟩
  | .hbm, ⟨80, _⟩ => ⟨S100000x1, .f32⟩
  | .hbm, ⟨81, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call1_cst : Ref sig .tc := ⟨.hbm, 57, rfl⟩
abbrev main_call1_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x1_S5000x1_1_0_0_1_n_n_wf : DotDims.WF S5000x64 S64x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S100000x64 : Shape := ⟨2, ![100000, 64]⟩
abbrev S3300000x1 : Shape := ⟨2, ![3300000, 1]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x64, .f32⟩
  | 4 => ⟨S64, .f32⟩
  | 5 => ⟨S64x1, .f32⟩
  | 6 => ⟨S1, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S100000x64, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S3300000x1, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x64, .f32⟩
  | 64 => ⟨S3300000x64, .f32⟩
  | 65 => ⟨S_, .f32⟩
  | 66 => ⟨S100000x64, .f32⟩
  | 67 => ⟨S3300000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x1, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S3300000x1, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x1, .f32⟩
  | 121 => ⟨S3300000x1, .f32⟩
  | 122 => ⟨S_, .f32⟩
  | 123 => ⟨S100000x1, .f32⟩
  | 124 => ⟨S3300000x1, .i32⟩
  | 125 => ⟨S100000x1, .f32⟩
  | 126 => ⟨S1x1, .f32⟩
  | 127 => ⟨S100000x1, .f32⟩
  | _ => ⟨S100000x128, .f32⟩

abbrev hbmTy0_1 (i : Nat) : BufTy := match i % 128 with
  | 0 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_c_19 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_20 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KRun.lean ====
/-
  The idealized kernel's run with its result named.

  The program is two pipelined regions among stretches of host operations.  From any memory with zero counters every
  weakly fair execution terminates without a fault; its final state holds, in every unscoped buffer, the contents the
  fold through the segments computes (host stretches applied in order, each region's arrays at what its write-backs
  leave).  Read at the result buffer this names the result; read at the argument buffers it gives them back unchanged.
  The statement is the frame's with one more conjunct: the same launch over the same segments, the final contents read
  at one more buffer.
-/
import proofs.«155296_j67216238182417_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the result buffer at the fold's final contents
    and the argument arrays as launched. -/
theorem run_result : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Run

end
-- ==== Proof.KStretches.lean ====
/-
  The idealized kernel's host stretches, one at a time, at arbitrary entry contents.

  Around its two pipelined regions the program computes, on the host: the edge lists with self-loops appended
  (sources, destinations, weights), the weighted in-degree of every node by a scatter-add, and the guarded
  inverse-root degree, reshaped to a column; after the first region one graph-convolution layer's aggregation
  (gather the scaled rows at the sources, weight them, scatter-add them at the destinations, scale by the destination's
  inverse-root degree, add the bias) followed by the rectifier; after the second region the same aggregation for the
  one-column layer.  Each lemma reads one buffer after one stretch as the stretch's operations applied to the buffers
  the stretch started from.  The shared beginning — edge lists, degree, inverse-root degree — is the same sequence of
  operations the reference performs, and is stated as the reference's own stages.
-/
import proofs.«155296_j67216238182417_2_alg».proof.Proof.Gen.KernelIdeal.Frame
import proofs.«155296_j67216238182417_2_alg».proof.Proof.Gen.ReferenceIdeal.Read
import Idealize.ShloMosaic.PureOps.Ideal
import Idealize.ShloMosaic.PureOps.Ideal.Laws
import Idealize.ShloMosaic.Lib.StableHlo.Run

set_option maxRecDepth 65536

noncomputable section

namespace Cert.KernelIdeal.HostChain

open Cert.KernelIdeal Cert.KernelIdeal.Gen
open Idealize.ShloMosaic Idealize.ShloMosaic.TcCoe Idealize.SL.Sem Idealize.ShloMosaic.StableHlo

/-- The start-index column of a gather along node rows: a negative position wraps once by the node count. -/
def startCol (pos : IVec S3300000 32) : IVec S3300000x1 32 :=
  broadcastInDim S3300000x1 ![0] bcast_S3300000_S3300000x1_0
    (select (cmpi .slt pos (broadcastInDim S3300000 ![] bcast_S_S3300000 (constantI S_ 32 0#32)))
      (addi pos (broadcastInDim S3300000 ![] bcast_S_S3300000 (constantI S_ 32 100000#32))) pos)

/-- The first layer after its product: aggregate the scaled rows `y` over the edges, scale by the destination's
    factor `dcol`, add the bias, rectify. -/
def layerWide (y : FVec Ideal S100000x64 .f32) (dcol : FVec Ideal S100000x1 .f32) (ew : FVec Ideal S3300000 .f32)
    (src dst : IVec S3300000 32) (b : FVec Ideal S64 .f32) : FVec Ideal S100000x64 .f32 :=
  maximumf
    (addf
      (mulf (broadcastInDim S100000x64 ![0, 1] bcast_S100000x1_S100000x64_0_1 dcol)
        (Host.scatterAdd scatter_S100000x64_S3300000x1_S3300000x64_1_0_0_1
          (broadcastInDim S100000x64 ![] bcast_S_S100000x64 (constant (F := Ideal) S_ .f32 0x00000000#32))
          (broadcastInDim S3300000x1 ![0] bcast_S3300000_S3300000x1_0 dst)
          (mulf
            (broadcastInDim S3300000x64 ![0, 1] bcast_S3300000x1_S3300000x64_0_1
              (broadcastInDim S3300000x1 ![0] bcast_S3300000_S3300000x1_0 ew))
            (extf .f32
              (Host.gather gather_S100000x64_S3300000x1_S3300000x64_1_0_n_n_0_1_164
                (truncf .bf16 y bitsLt_bf16_f32) (startCol src))
              bitsLt_bf16_f32))))
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The second layer after its product: the same aggregation for one column, no rectifier. -/
def layerNarrow (y : FVec Ideal S100000x1 .f32) (dcol : FVec Ideal S100000x1 .f32) (ew : FVec Ideal S3300000 .f32)
    (src dst : IVec S3300000 32) (b : FVec Ideal S1 .f32) : FVec Ideal S100000x1 .f32 :=
  addf
    (mulf dcol
      (Host.scatterAdd scatter_S100000x1_S3300000x1_S3300000x1_1_0_0_1
        (broadcastInDim S100000x1 ![] bcast_S_S100000x1 (constant (F := Ideal) S_ .f32 0x00000000#32))
        (broadcastInDim S3300000x1 ![0] bcast_S3300000_S3300000x1_0 dst)
        (mulf (broadcastInDim S3300000x1 ![0] bcast_S3300000_S3300000x1_0 ew)
          (extf .f32
            (Host.gather gather_S100000x1_S3300000x1_S3300000x1_1_0_n_n_0_1_11
              (truncf .bf16 y bitsLt_bf16_f32) (startCol src))
            bitsLt_bf16_f32))))
    (broadcastInDim S100000x1 ![0, 1] bcast_S1x1_S100000x1_0_1 (broadcastInDim S1x1 ![1] bcast_S1_S1x1_1 b))

variable (V : Valuation τ sig (Elt Ideal))

/-! ## The first stretch: edge lists, degree, the two inputs of the guard -/

set_option maxHeartbeats 8000000 in
theorem first_src : StableHlo.after hostOps0 V (Proc.devRef .tc main_v3)
    = Cert.ReferenceIdeal.Read.val_main_v3 (F := Ideal) (V (Proc.devRef .tc main_arg1)) := by
  after_results_simp
  rfl

set_option maxHeartbeats 8000000 in
theorem first_dst : StableHlo.after hostOps0 V (Proc.devRef .tc main_v6)
    = Cert.ReferenceIdeal.Read.val_main_v6 (F := Ideal) (V (Proc.devRef .tc main_arg1)) := by
  after_results_simp
  rfl

set_option maxHeartbeats 8000000 in
theorem first_ew : StableHlo.after hostOps0 V (Proc.devRef .tc main_v8)
    = Cert.ReferenceIdeal.Read.val_main_v8 (F := Ideal) (V (Proc.devRef .tc main_arg2)) := by
  after_results_simp
  rfl

set_option maxHeartbeats 8000000 in
theorem first_positive : StableHlo.after hostOps0 V (Proc.devRef .tc main_v13)
    = Cert.ReferenceIdeal.Read.val_main_v14 (F := Ideal) (V (Proc.devRef .tc main_arg1)) (V (Proc.devRef .tc main_arg2)) := by
  after_results_simp
  rfl

set_option maxHeartbeats 8000000 in
theorem first_rsqrt : StableHlo.after hostOps0 V (Proc.devRef .tc main_v16)
    = Cert.ReferenceIdeal.Read.val_main_v17 (F := Ideal) (V (Proc.devRef .tc main_arg1)) (V (Proc.devRef .tc main_arg2)) := by
  after_results_simp
  rfl

set_option maxHeartbeats 8000000 in
theorem first_zero : StableHlo.after hostOps0 V (Proc.devRef .tc main_cst_3)
    = (constant (F := Ideal) S_ .f32 0x00000000#32 : FVec Ideal S_ .f32) := by
  after_results_simp

/-! ## The guard and the reshape to a column -/

set_option maxHeartbeats 8000000 in
theorem guard_result : StableHlo.after hostOps0_1 V (Proc.devRef .tc main_v17)
    = (select (V (Proc.devRef .tc main_v13) : IVec S100000 1) (V (Proc.devRef .tc main_v16) : FVec Ideal S100000 .f32)
        (broadcastInDim S100000 ![] bcast_S_S100000 (id (V (Proc.devRef .tc main_cst_3) : FVec Ideal S_ .f32))) : FVec Ideal S100000 .f32) := by
  after_results_simp
  rfl

set_option maxHeartbeats 8000000 in
theorem column_result : StableHlo.after hostOps0_2 V (Proc.devRef .tc main_v18)
    = (shapeCast S100000x1 (V (Proc.devRef .tc main_v17) : FVec Ideal S100000 .f32) shapeCasts_S100000_S100000x1 : FVec Ideal S100000x1 .f32) := by
  after_results_simp
  rfl

/-! ## The first layer's aggregation, and the rectifier -/

set_option maxHeartbeats 16000000 in
theorem wide_result : StableHlo.after hostOps1_1 (StableHlo.after hostOps1 V) (Proc.devRef .tc main_v40)
    = layerWide (V (Proc.devRef .tc main_v19)) (V (Proc.devRef .tc main_v18)) (V (Proc.devRef .tc main_v8))
        (V (Proc.devRef .tc main_v3)) (V (Proc.devRef .tc main_v6)) (V (Proc.devRef .tc main_arg4)) := by
  after_results_simp
  rfl

/-! ## The second layer's aggregation -/

set_option maxHeartbeats 8000000 in
theorem narrow_result : StableHlo.after hostOps2 V (Proc.devRef .tc main_v59)
    = layerNarrow (V (Proc.devRef .tc main_v41)) (V (Proc.devRef .tc main_v18)) (V (Proc.devRef .tc main_v8))
        (V (Proc.devRef .tc main_v3)) (V (Proc.devRef .tc main_v6)) (V (Proc.devRef .tc main_arg6)) := by
  after_results_simp
  rfl

end Cert.KernelIdeal.HostChain

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.RegionArrays.lean ====
/-
  The two row-blocked products, scaled row by row, as whole arrays.

  Each of the two regions walks twenty blocks of 5000 rows. On a block it multiplies the rows of a left operand into a
  whole right operand — on the extended reals the narrowing of both operands is the identity and the product into the
  zero accumulator is the plain sum over the shared axis — and scales every row of the result by that row's entry of a
  column of factors. Because entry (r, c) of the result depends only on row r of the left operand, on the right operand
  and on the factor of row r, the blocks are the restrictions of ONE function of the whole arrays:

      (r, c) ↦ (∑ k, x[r, k] · w[k, c]) · d[r, 0].

  For each region this file reads one block at an entry, places the four blocks of a grid point inside their arrays (a
  block's coordinate is its block index times the block extent plus the coordinate inside the block), shows that what a
  grid point writes back is its block of the whole-array function, that the twenty blocks fill the result array (row r
  lies in block r / 5000), and concludes that the result array after the region is that function of the arrays the
  region found.
-/
import proofs.«155296_j67216238182417_2_alg».proof.Proof.Gen.KernelIdeal.Frame
import proofs.«155296_j67216238182417_2_alg».proof.Proof.LibPlainProduct
import proofs.«155296_j67216238182417_2_alg».proof.Proof.LibColumnLayout
import Idealize.ShloMosaic.Lib.Pipeline.Value
import Idealize.ShloMosaic.Lib.ValueIdx

noncomputable section

namespace Cert.KernelIdeal.RegionArrays

open Cert.KernelIdeal Idealize.ShloMosaic Idealize.ShloMosaic.TcCoe Idealize.SL.Sem
open Idealize.ShloMosaic.ValueIdx
open Idealize.ShloMosaic.Pipeline (Dat)

/-- Each row's products summed over the shared axis, then the row scaled by its own factor. -/
def rowsScaled0 (x : S100000x128.Idx → EReal) (w : S128x64.Idx → EReal) (d : S100000x1.Idx → EReal) :
    S100000x64.Idx → EReal :=
  fun i => (∑ k : Fin 128, x (ix2 (i 0) k) * w (ix2 k (i 1))) * d (ix2 (i 0) (0 : Fin 1))

/-- The first product's dimension numbers contract the left operand's second axis against the right operand's
    first: the contraction has one axis of extent 128, and at the output entry (p, c) and contraction coordinate k
    the operands are read at (p, k) and (k, c). -/
theorem product0_contr_rank : dot_S5000x128_S128x64_S5000x64_1_0_0_1_n_n.contr.rank = 1 := rfl
theorem product0_contr_size :
    dot_S5000x128_S128x64_S5000x64_1_0_0_1_n_n.contr.size ⟨0, by decide⟩ = 128 := rfl
theorem product0_lhs_row (j : S5000x64.Idx) (k : dot_S5000x128_S128x64_S5000x64_1_0_0_1_n_n.contr.Idx) :
    (dot_S5000x128_S128x64_S5000x64_1_0_0_1_n_n.lhsIdx j k (0 : Fin 2)).val = (j (0 : Fin 2)).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem product0_lhs_col (j : S5000x64.Idx) (k : dot_S5000x128_S128x64_S5000x64_1_0_0_1_n_n.contr.Idx) :
    (dot_S5000x128_S128x64_S5000x64_1_0_0_1_n_n.lhsIdx j k (1 : Fin 2)).val = (k ⟨0, by decide⟩).val :=
  dot_S5000x128_S128x64_S5000x64_1_0_0_1_n_n.lhsIdx_val_of_single rfl j k
theorem product0_rhs_row (j : S5000x64.Idx) (k : dot_S5000x128_S128x64_S5000x64_1_0_0_1_n_n.contr.Idx) :
    (dot_S5000x128_S128x64_S5000x64_1_0_0_1_n_n.rhsIdx j k (0 : Fin 2)).val = (k ⟨0, by decide⟩).val :=
  dot_S5000x128_S128x64_S5000x64_1_0_0_1_n_n.rhsIdx_val_of_single rfl j k
theorem product0_rhs_col (j : S5000x64.Idx) (k : dot_S5000x128_S128x64_S5000x64_1_0_0_1_n_n.contr.Idx) :
    (dot_S5000x128_S128x64_S5000x64_1_0_0_1_n_n.rhsIdx j k (1 : Fin 2)).val = (j (1 : Fin 2)).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- One block of the first region at an entry: the narrowing of the operands changes nothing on the extended
    reals, the product into the zero accumulator is the plain sum over the shared axis, and the column of row
    factors, spread across the 64 columns, contributes the factor of the entry's row. -/
theorem blockProduct0_entry (x0 : Vec Ideal S5000x128 .f32) (w0 : Vec Ideal S128x64 .f32) (d0 : Vec Ideal S5000x1 .f32)
    (p : Fin 5000) (q : Fin 64) :
    Gen.k0_pay1 (F := Ideal) x0 w0 d0 (ix2 p q)
      = (∑ k : Fin 128, x0 (ix2 p k) * w0 (ix2 k q)) * d0 (ix2 p (0 : Fin 1)) := by
  unfold Gen.k0_pay1
  refine (mulf_apply _ _ _).trans ?_
  refine congrArg₂ (· * ·) ?_ ?_
  · exact Cert.PlainProduct.matmul_zero_entry dot_S5000x128_S128x64_S5000x64_1_0_0_1_n_n
      product0_contr_rank product0_contr_size product0_lhs_row product0_lhs_col product0_rhs_row product0_rhs_col
      (truncf .bf16 x0 Gen.bitsLt_bf16_f32) (truncf .bf16 w0 Gen.bitsLt_bf16_f32) p q
  · refine (Cert.ColumnLayout.broadcastTo_a1_ab_apply _ _ p q).trans ?_
    exact congrFun (shapeCast_self d0 _) _

theorem zeroOffsets : (![0, 0] : Fin 2 → Nat) = fun _ => 0 := funext fun a => by fin_cases a <;> rfl

/-- A block of the first region as rows of the whole arrays. When the left operand's block and the factor column's
    block are rows `b · 5000 + p` of their arrays, the right operand's block is the whole matrix, and the output block
    sits at the same rows, the block's entry (p, q) is the whole-array function's entry at row `b · 5000 + p`. The
    four placements are given as index maps with their coordinates. -/
theorem block0_of_rows (X : S100000x128.Idx → EReal) (W : S128x64.Idx → EReal) (D : S100000x1.Idx → EReal) (b : ℕ)
    (ex : S5000x128.Idx → S100000x128.Idx) (ew : S128x64.Idx → S128x64.Idx) (ed : S5000x1.Idx → S100000x1.Idx)
    (eo : S5000x64.Idx → S100000x64.Idx)
    (hex : ∀ y, (ex y 0).val = b * 5000 + (y 0).val ∧ (ex y 1).val = (y 1).val)
    (hew : ∀ y, (ew y 0).val = (y 0).val ∧ (ew y 1).val = (y 1).val)
    (hed : ∀ y, (ed y 0).val = b * 5000 + (y 0).val ∧ (ed y 1).val = (y 1).val)
    (heo : ∀ y, (eo y 0).val = b * 5000 + (y 0).val ∧ (eo y 1).val = (y 1).val)
    (j : S5000x64.Idx) :
    Gen.k0_pay1 (F := Ideal) (fun y => X (ex y)) (fun y => W (ew y)) (fun y => D (ed y)) j
      = rowsScaled0 X W D (eo j) := by
  obtain ⟨p, q, rfl⟩ : ∃ (p : Fin 5000) (q : Fin 64), j = ix2 p q := ⟨j 0, j 1, eq_ix2 j⟩
  refine (blockProduct0_entry _ _ _ p q).trans ?_
  have hx : ∀ k : Fin 128, ex (ix2 p k) = ix2 (eo (ix2 p q) 0) k := fun k => funext fun a => Fin.ext (by
    match a with
    | ⟨0, _⟩ => exact (hex (ix2 p k)).1.trans (heo (ix2 p q)).1.symm
    | ⟨1, _⟩ => exact (hex (ix2 p k)).2)
  have hw : ∀ k : Fin 128, ew (ix2 k q) = ix2 k (eo (ix2 p q) 1) := fun k => funext fun a => Fin.ext (by
    match a with
    | ⟨0, _⟩ => exact (hew (ix2 k q)).1
    | ⟨1, _⟩ => exact (hew (ix2 k q)).2.trans (heo (ix2 p q)).2.symm)
  have hd : ed (ix2 p (0 : Fin 1)) = ix2 (eo (ix2 p q) 0) (0 : Fin 1) := funext fun a => Fin.ext (by
    match a with
    | ⟨0, _⟩ => exact (hed (ix2 p (0 : Fin 1))).1.trans (heo (ix2 p q)).1.symm
    | ⟨1, _⟩ => exact (hed (ix2 p (0 : Fin 1))).2)
  refine congrArg₂ (· * ·) (Finset.sum_congr rfl fun k _ => ?_) (congrArg D hd)
  exact congrArg₂ (· * ·) (congrArg X (hx k)) (congrArg W (hw k))

/-- The block indices over the first region's grid: at point t the row-blocked windows sit at row block t and column
    block 0, and the whole-matrix window at block (0, 0). -/
theorem blockIndices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t of the first region writes back is block t of the whole-array function of the arrays the region
    finds: each input block is read at the rows the output block's rectangle names. -/
theorem flushed0_eq (V : (c : Dev nD) → (b : Ref sig .tc) → Buf (Elt Ideal) ((c : Thread nD τ).loc b)) (c : Dev nD)
    (t : Fin cfg0.N) :
    (Gen.dat0 (F := Ideal) V c).flushed 3 t
      = ((cfg0.win 3).blk t).view.read (Elt Ideal) (rowsScaled0 (V c main_arg0) (V c main_arg3) (V c main_v18)) := by
  show (cfg0.win 3).cut (grid0.coords t) ((Gen.dat0 (F := Ideal) V c).after 3 t) = _
  rw [Gen.after0_3]
  unfold Gen.out0_3
  rw [View.canon_unit_zero zeroOffsets]
  simp only [View.ld_unit_zero (S := S5000x128) zeroOffsets, View.ld_unit_zero (S := S128x64) zeroOffsets,
    View.ld_unit_zero (S := S5000x1) zeroOffsets]
  obtain ⟨e00, e01, e10, e11, e20, e21, e30, e31⟩ := blockIndices0 t
  funext j
  exact block0_of_rows (V c main_arg0) (V c main_arg3) (V c main_v18) t.val
    ((cfg0.win 0).blk t).view.emb ((cfg0.win 1).blk t).view.emb ((cfg0.win 2).blk t).view.emb
    ((cfg0.win 3).blk t).view.emb
    (fun y => ⟨by show win0_0.index t (0 : Fin 2) * 5000 + 1 * (y 0).val = _; omega,
      by show win0_0.index t (1 : Fin 2) * 128 + 1 * (y 1).val = _; omega⟩)
    (fun y => ⟨by show win0_1.index t (0 : Fin 2) * 128 + 1 * (y 0).val = _; omega,
      by show win0_1.index t (1 : Fin 2) * 64 + 1 * (y 1).val = _; omega⟩)
    (fun y => ⟨by show win0_2.index t (0 : Fin 2) * 5000 + 1 * (y 0).val = _; omega,
      by show win0_2.index t (1 : Fin 2) * 1 + 1 * (y 1).val = _; omega⟩)
    (fun y => ⟨by show win0_3.index t (0 : Fin 2) * 5000 + 1 * (y 0).val = _; omega,
      by show win0_3.index t (1 : Fin 2) * 64 + 1 * (y 1).val = _; omega⟩)
    j

/-- An index of the result array is in point t's block iff each coordinate is in the block's range on its axis. -/
theorem mem_block0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v19).slice (win0_3.rect t)).set ↔ _
  rw [View.set_slice_whole, Rect.mem_set_unit]
  exact Iff.rfl

/-- The twenty row blocks fill the result array: row r lies in the block of point r / 5000. -/
theorem rows_covered0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := Gen.N_0
  obtain ⟨t, ht⟩ : ∃ t : Fin cfg0.N, t.val = (i 0).val / 5000 := ⟨⟨(i 0).val / 5000, by rw [hN]; omega⟩, rfl⟩
  obtain ⟨-, -, -, -, -, -, e30, e31⟩ := blockIndices0 t
  refine ⟨t, Gen.flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- The first region's result array after the run: every row of the left operand multiplied into the right operand
    and scaled by the row's factor, as one function of the arrays the region finds. -/
theorem final0 (V : (c : Dev nD) → (b : Ref sig .tc) → Buf (Elt Ideal) ((c : Thread nD τ).loc b)) (c : Dev nD) :
    (Gen.dat0 (F := Ideal) V c).arrAt 3 cfg0.N = rowsScaled0 (V c main_arg0) (V c main_arg3) (V c main_v18) :=
  (Gen.dat0 (F := Ideal) V c).arrAt_eq_of_cover 3 (rowsScaled0 (V c main_arg0) (V c main_arg3) (V c main_v18))
    (fun t _ => flushed0_eq V c t) rows_covered0

/-! ## The second region: 64 shared columns, one result column -/

/-- Each row's products summed over the shared axis, then the row scaled by its own factor: one result column. -/
def rowsScaled1 (x : S100000x64.Idx → EReal) (w : S64x1.Idx → EReal) (d : S100000x1.Idx → EReal) :
    S100000x1.Idx → EReal :=
  fun i => (∑ k : Fin 64, x (ix2 (i 0) k) * w (ix2 k (i 1))) * d (ix2 (i 0) (0 : Fin 1))

/-- The second product's dimension numbers, read as the first's: one contraction axis of extent 64, the operands
    read at (p, k) and (k, c). -/
theorem product1_contr_rank : dot_S5000x64_S64x1_S5000x1_1_0_0_1_n_n.contr.rank = 1 := rfl
theorem product1_contr_size :
    dot_S5000x64_S64x1_S5000x1_1_0_0_1_n_n.contr.size ⟨0, by decide⟩ = 64 := rfl
theorem product1_lhs_row (j : S5000x1.Idx) (k : dot_S5000x64_S64x1_S5000x1_1_0_0_1_n_n.contr.Idx) :
    (dot_S5000x64_S64x1_S5000x1_1_0_0_1_n_n.lhsIdx j k (0 : Fin 2)).val = (j (0 : Fin 2)).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl
theorem product1_lhs_col (j : S5000x1.Idx) (k : dot_S5000x64_S64x1_S5000x1_1_0_0_1_n_n.contr.Idx) :
    (dot_S5000x64_S64x1_S5000x1_1_0_0_1_n_n.lhsIdx j k (1 : Fin 2)).val = (k ⟨0, by decide⟩).val :=
  dot_S5000x64_S64x1_S5000x1_1_0_0_1_n_n.lhsIdx_val_of_single rfl j k
theorem product1_rhs_row (j : S5000x1.Idx) (k : dot_S5000x64_S64x1_S5000x1_1_0_0_1_n_n.contr.Idx) :
    (dot_S5000x64_S64x1_S5000x1_1_0_0_1_n_n.rhsIdx j k (0 : Fin 2)).val = (k ⟨0, by decide⟩).val :=
  dot_S5000x64_S64x1_S5000x1_1_0_0_1_n_n.rhsIdx_val_of_single rfl j k
theorem product1_rhs_col (j : S5000x1.Idx) (k : dot_S5000x64_S64x1_S5000x1_1_0_0_1_n_n.contr.Idx) :
    (dot_S5000x64_S64x1_S5000x1_1_0_0_1_n_n.rhsIdx j k (1 : Fin 2)).val = (j (1 : Fin 2)).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- One block of the second region at an entry: the casts of the left operand and of the factor column to their own
    shapes and the narrowings change nothing, the product into the zero accumulator is the plain sum over the shared
    axis, and the factor column multiplies entry by entry. -/
theorem blockProduct1_entry (x0 : Vec Ideal S5000x64 .f32) (w0 : Vec Ideal S64x1 .f32) (d0 : Vec Ideal S5000x1 .f32)
    (p : Fin 5000) (q : Fin 1) :
    Gen.k1_pay1 (F := Ideal) x0 w0 d0 (ix2 p q)
      = (∑ k : Fin 64, x0 (ix2 p k) * w0 (ix2 k q)) * d0 (ix2 p q) := by
  unfold Gen.k1_pay1
  refine (mulf_apply _ _ _).trans ?_
  refine congrArg₂ (· * ·) ?_ ?_
  · refine (Cert.PlainProduct.matmul_zero_entry dot_S5000x64_S64x1_S5000x1_1_0_0_1_n_n
      product1_contr_rank product1_contr_size product1_lhs_row product1_lhs_col product1_rhs_row product1_rhs_col
      (truncf .bf16 (shapeCast S5000x64 x0 Gen.shapeCasts_S5000x64_S5000x64) Gen.bitsLt_bf16_f32)
      (truncf .bf16 w0 Gen.bitsLt_bf16_f32) p q).trans ?_
    refine Finset.sum_congr rfl fun k _ => congrArg₂ (· * ·) ?_ rfl
    exact congrFun (shapeCast_self x0 Gen.shapeCasts_S5000x64_S5000x64) (ix2 p k)
  · exact congrFun (shapeCast_self d0 _) _

/-- A block of the second region as rows of the whole arrays, the four placements given as index maps with their
    coordinates (as for the first region). -/
theorem block1_of_rows (X : S100000x64.Idx → EReal) (W : S64x1.Idx → EReal) (D : S100000x1.Idx → EReal) (b : ℕ)
    (ex : S5000x64.Idx → S100000x64.Idx) (ew : S64x1.Idx → S64x1.Idx) (ed : S5000x1.Idx → S100000x1.Idx)
    (eo : S5000x1.Idx → S100000x1.Idx)
    (hex : ∀ y, (ex y 0).val = b * 5000 + (y 0).val ∧ (ex y 1).val = (y 1).val)
    (hew : ∀ y, (ew y 0).val = (y 0).val ∧ (ew y 1).val = (y 1).val)
    (hed : ∀ y, (ed y 0).val = b * 5000 + (y 0).val ∧ (ed y 1).val = (y 1).val)
    (heo : ∀ y, (eo y 0).val = b * 5000 + (y 0).val ∧ (eo y 1).val = (y 1).val)
    (j : S5000x1.Idx) :
    Gen.k1_pay1 (F := Ideal) (fun y => X (ex y)) (fun y => W (ew y)) (fun y => D (ed y)) j
      = rowsScaled1 X W D (eo j) := by
  obtain ⟨p, q, rfl⟩ : ∃ (p : Fin 5000) (q : Fin 1), j = ix2 p q := ⟨j 0, j 1, eq_ix2 j⟩
  refine (blockProduct1_entry _ _ _ p q).trans ?_
  have hq : q.val = 0 := by omega
  have hx : ∀ k : Fin 64, ex (ix2 p k) = ix2 (eo (ix2 p q) 0) k := fun k => funext fun a => Fin.ext (by
    match a with
    | ⟨0, _⟩ => exact (hex (ix2 p k)).1.trans (heo (ix2 p q)).1.symm
    | ⟨1, _⟩ => exact (hex (ix2 p k)).2)
  have hw : ∀ k : Fin 64, ew (ix2 k q) = ix2 k (eo (ix2 p q) 1) := fun k => funext fun a => Fin.ext (by
    match a with
    | ⟨0, _⟩ => exact (hew (ix2 k q)).1
    | ⟨1, _⟩ => exact (hew (ix2 k q)).2.trans (heo (ix2 p q)).2.symm)
  have hd : ed (ix2 p q) = ix2 (eo (ix2 p q) 0) (0 : Fin 1) := funext fun a => Fin.ext (by
    match a with
    | ⟨0, _⟩ => exact (hed (ix2 p q)).1.trans (heo (ix2 p q)).1.symm
    | ⟨1, _⟩ => exact (hed (ix2 p q)).2.trans hq)
  refine congrArg₂ (· * ·) (Finset.sum_congr rfl fun k _ => ?_) (congrArg D hd)
  exact congrArg₂ (· * ·) (congrArg X (hx k)) (congrArg W (hw k))

/-- The block indices over the second region's grid. -/
theorem blockIndices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t of the second region writes back is block t of the whole-array function of the arrays the region
    finds. -/
theorem flushed1_eq (V : (c : Dev nD) → (b : Ref sig .tc) → Buf (Elt Ideal) ((c : Thread nD τ).loc b)) (c : Dev nD)
    (t : Fin cfg1.N) :
    (Gen.dat1 (F := Ideal) V c).flushed 3 t
      = ((cfg1.win 3).blk t).view.read (Elt Ideal) (rowsScaled1 (V c main_v40) (V c main_arg5) (V c main_v18)) := by
  show (cfg1.win 3).cut (grid1.coords t) ((Gen.dat1 (F := Ideal) V c).after 3 t) = _
  rw [Gen.after1_3]
  unfold Gen.out1_3
  rw [View.canon_unit_zero zeroOffsets]
  simp only [View.ld_unit_zero (S := S5000x64) zeroOffsets, View.ld_unit_zero (S := S64x1) zeroOffsets,
    View.ld_unit_zero (S := S5000x1) zeroOffsets]
  obtain ⟨e00, e01, e10, e11, e20, e21, e30, e31⟩ := blockIndices1 t
  funext j
  exact block1_of_rows (V c main_v40) (V c main_arg5) (V c main_v18) t.val
    ((cfg1.win 0).blk t).view.emb ((cfg1.win 1).blk t).view.emb ((cfg1.win 2).blk t).view.emb
    ((cfg1.win 3).blk t).view.emb
    (fun y => ⟨by show win1_0.index t (0 : Fin 2) * 5000 + 1 * (y 0).val = _; omega,
      by show win1_0.index t (1 : Fin 2) * 64 + 1 * (y 1).val = _; omega⟩)
    (fun y => ⟨by show win1_1.index t (0 : Fin 2) * 64 + 1 * (y 0).val = _; omega,
      by show win1_1.index t (1 : Fin 2) * 1 + 1 * (y 1).val = _; omega⟩)
    (fun y => ⟨by show win1_2.index t (0 : Fin 2) * 5000 + 1 * (y 0).val = _; omega,
      by show win1_2.index t (1 : Fin 2) * 1 + 1 * (y 1).val = _; omega⟩)
    (fun y => ⟨by show win1_3.index t (0 : Fin 2) * 5000 + 1 * (y 0).val = _; omega,
      by show win1_3.index t (1 : Fin 2) * 1 + 1 * (y 1).val = _; omega⟩)
    j

/-- An index of the second result array is in point t's block iff each coordinate is in the block's range. -/
theorem mem_block1 (t : Fin cfg1.N) (i : S100000x1.Idx) :
    i ∈ ((cfg1.win 3).blk t).view.set ↔ ∀ a : Fin 2, win1_3.index t a * S5000x1.size a ≤ (i a).val
      ∧ (i a).val < win1_3.index t a * S5000x1.size a + S5000x1.size a := by
  show i ∈ ((View.whole main_v41).slice (win1_3.rect t)).set ↔ _
  rw [View.set_slice_whole, Rect.mem_set_unit]
  exact Iff.rfl

/-- The twenty row blocks fill the second result array: row r lies in the block of point r / 5000. -/
theorem rows_covered1 (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  have hN : cfg1.N = 20 := Gen.N_1
  obtain ⟨t, ht⟩ : ∃ t : Fin cfg1.N, t.val = (i 0).val / 5000 := ⟨⟨(i 0).val / 5000, by rw [hN]; omega⟩, rfl⟩
  obtain ⟨-, -, -, -, -, -, e30, e31⟩ := blockIndices1 t
  refine ⟨t, Gen.flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 1 ≤ (i 1).val ∧ (i 1).val < win1_3.index t (1 : Fin 2) * 1 + 1
    omega

/-- The second region's result array after the run, as one function of the arrays the region finds. -/
theorem final1 (V : (c : Dev nD) → (b : Ref sig .tc) → Buf (Elt Ideal) ((c : Thread nD τ).loc b)) (c : Dev nD) :
    (Gen.dat1 (F := Ideal) V c).arrAt 3 cfg1.N = rowsScaled1 (V c main_v40) (V c main_arg5) (V c main_v18) :=
  (Gen.dat1 (F := Ideal) V c).arrAt_eq_of_cover 3 (rowsScaled1 (V c main_v40) (V c main_arg5) (V c main_v18))
    (fun t _ => flushed1_eq V c t) rows_covered1

end Cert.KernelIdeal.RegionArrays

end
-- ==== Proof.KValue.lean ====
/-
  The idealized kernel's result as one function of its argument arrays.

  The fold through the program's segments is walked back from the result buffer: the last host stretch is the narrow
  layer's aggregation of the second region's array; that array is the rectified first layer's rows times the second
  weight, each row scaled by its inverse-root degree; the rectified first layer is the wide aggregation of the first
  region's array, which is the input rows times the first weight, scaled the same way.  The edge lists, the edge weights
  and the inverse-root degree column are computed before the first region and no later segment writes them, so every
  later segment finds them as the first stretch left them; the argument arrays are never written at all.
-/
import proofs.«155296_j67216238182417_2_alg».proof.Proof.KStretches
import proofs.«155296_j67216238182417_2_alg».proof.Proof.RegionArrays

set_option maxRecDepth 65536

noncomputable section

namespace Cert.KernelIdeal.HostChain

open Cert.KernelIdeal Cert.KernelIdeal.Gen Cert.KernelIdeal.RegionArrays
open Idealize.ShloMosaic Idealize.ShloMosaic.TcCoe Idealize.SL.Sem Idealize.ShloMosaic.StableHlo

/-- A buffer that none of a stretch's operations writes keeps its contents through the stretch. -/
macro "unwritten" : tactic => `(tactic|
  exact StableHlo.after_of_forall_not_mem _ _ (List.forall_iff_forall_mem.mp (by
    simp only [hostOps0, hostOps0_1, hostOps0_2, hostOps1, hostOps1_1, hostOps2, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-- The inverse-root degree of every node, as a column. -/
def dinvColumn : FVec Ideal S100000x1 .f32 :=
  shapeCast S100000x1 (Cert.ReferenceIdeal.Read.val_main_v18 (F := Ideal) (m ((c.tc : Thread nD τ).loc main_arg1)) (m ((c.tc : Thread nD τ).loc main_arg2))) shapeCasts_S100000_S100000x1

/-! ## The buffers the first stretch leaves, found unchanged by every later segment -/

theorem W3_src : W3 m ρ c (Proc.devRef .tc main_v3) = (Cert.ReferenceIdeal.Read.val_main_v3 (F := Ideal) (m ((c.tc : Thread nD τ).loc main_arg1))) :=
  calc W3 m ρ c (Proc.devRef .tc main_v3)
    _ = W2 m ρ c (Proc.devRef .tc main_v3) := by unwritten
    _ = W1 m ρ c (Proc.devRef .tc main_v3) := by unwritten
    _ = (Cert.ReferenceIdeal.Read.val_main_v3 (F := Ideal) (m ((c.tc : Thread nD τ).loc main_arg1))) := first_src (W0 m ρ c)
theorem W4_src : W4 m ρ c (Proc.devRef .tc main_v3) = (Cert.ReferenceIdeal.Read.val_main_v3 (F := Ideal) (m ((c.tc : Thread nD τ).loc main_arg1))) :=
  (W4_of_ne m ρ c main_v3 (by decide)).trans (W3_src m ρ c)
theorem W6_src : W6 m ρ c (Proc.devRef .tc main_v3) = (Cert.ReferenceIdeal.Read.val_main_v3 (F := Ideal) (m ((c.tc : Thread nD τ).loc main_arg1))) :=
  calc W6 m ρ c (Proc.devRef .tc main_v3)
    _ = W5 m ρ c (Proc.devRef .tc main_v3) := by unwritten
    _ = W4 m ρ c (Proc.devRef .tc main_v3) := by unwritten
    _ = (Cert.ReferenceIdeal.Read.val_main_v3 (F := Ideal) (m ((c.tc : Thread nD τ).loc main_arg1))) := W4_src m ρ c
theorem W7_src : W7 m ρ c (Proc.devRef .tc main_v3) = (Cert.ReferenceIdeal.Read.val_main_v3 (F := Ideal) (m ((c.tc : Thread nD τ).loc main_arg1))) :=
  (W7_of_ne m ρ c main_v3 (by decide)).trans (W6_src m ρ c)

theorem W3_dst : W3 m ρ c (Proc.devRef .tc main_v6) = (Cert.ReferenceIdeal.Read.val_main_v6 (F := Ideal) (m ((c.tc : Thread nD τ).loc main_arg1))) :=
  calc W3 m ρ c (Proc.devRef .tc main_v6)
    _ = W2 m ρ c (Proc.devRef .tc main_v6) := by unwritten
    _ = W1 m ρ c (Proc.devRef .tc main_v6) := by unwritten
    _ = (Cert.ReferenceIdeal.Read.val_main_v6 (F := Ideal) (m ((c.tc : Thread nD τ).loc main_arg1))) := first_dst (W0 m ρ c)
theorem W4_dst : W4 m ρ c (Proc.devRef .tc main_v6) = (Cert.ReferenceIdeal.Read.val_main_v6 (F := Ideal) (m ((c.tc : Thread nD τ).loc main_arg1))) :=
  (W4_of_ne m ρ c main_v6 (by decide)).trans (W3_dst m ρ c)
theorem W6_dst : W6 m ρ c (Proc.devRef .tc main_v6) = (Cert.ReferenceIdeal.Read.val_main_v6 (F := Ideal) (m ((c.tc : Thread nD τ).loc main_arg1))) :=
  calc W6 m ρ c (Proc.devRef .tc main_v6)
    _ = W5 m ρ c (Proc.devRef .tc main_v6) := by unwritten
    _ = W4 m ρ c (Proc.devRef .tc main_v6) := by unwritten
    _ = (Cert.ReferenceIdeal.Read.val_main_v6 (F := Ideal) (m ((c.tc : Thread nD τ).loc main_arg1))) := W4_dst m ρ c
theorem W7_dst : W7 m ρ c (Proc.devRef .tc main_v6) = (Cert.ReferenceIdeal.Read.val_main_v6 (F := Ideal) (m ((c.tc : Thread nD τ).loc main_arg1))) :=
  (W7_of_ne m ρ c main_v6 (by decide)).trans (W6_dst m ρ c)

theorem W3_ew : W3 m ρ c (Proc.devRef .tc main_v8) = (Cert.ReferenceIdeal.Read.val_main_v8 (F := Ideal) (m ((c.tc : Thread nD τ).loc main_arg2))) :=
  calc W3 m ρ c (Proc.devRef .tc main_v8)
    _ = W2 m ρ c (Proc.devRef .tc main_v8) := by unwritten
    _ = W1 m ρ c (Proc.devRef .tc main_v8) := by unwritten
    _ = (Cert.ReferenceIdeal.Read.val_main_v8 (F := Ideal) (m ((c.tc : Thread nD τ).loc main_arg2))) := first_ew (W0 m ρ c)
theorem W4_ew : W4 m ρ c (Proc.devRef .tc main_v8) = (Cert.ReferenceIdeal.Read.val_main_v8 (F := Ideal) (m ((c.tc : Thread nD τ).loc main_arg2))) :=
  (W4_of_ne m ρ c main_v8 (by decide)).trans (W3_ew m ρ c)
theorem W6_ew : W6 m ρ c (Proc.devRef .tc main_v8) = (Cert.ReferenceIdeal.Read.val_main_v8 (F := Ideal) (m ((c.tc : Thread nD τ).loc main_arg2))) :=
  calc W6 m ρ c (Proc.devRef .tc main_v8)
    _ = W5 m ρ c (Proc.devRef .tc main_v8) := by unwritten
    _ = W4 m ρ c (Proc.devRef .tc main_v8) := by unwritten
    _ = (Cert.ReferenceIdeal.Read.val_main_v8 (F := Ideal) (m ((c.tc : Thread nD τ).loc main_arg2))) := W4_ew m ρ c
theorem W7_ew : W7 m ρ c (Proc.devRef .tc main_v8) = (Cert.ReferenceIdeal.Read.val_main_v8 (F := Ideal) (m ((c.tc : Thread nD τ).loc main_arg2))) :=
  (W7_of_ne m ρ c main_v8 (by decide)).trans (W6_ew m ρ c)

/-- The guard's result: the reference's inverse-root degree, operation for operation. -/
theorem W2_dinv : W2 m ρ c (Proc.devRef .tc main_v17) = (Cert.ReferenceIdeal.Read.val_main_v18 (F := Ideal) (m ((c.tc : Thread nD τ).loc main_arg1)) (m ((c.tc : Thread nD τ).loc main_arg2))) := by
  refine (guard_result (W1 m ρ c)).trans ?_
  rw [show W1 m ρ c (Proc.devRef .tc main_v13) = _ from first_positive (W0 m ρ c),
    show W1 m ρ c (Proc.devRef .tc main_v16) = _ from first_rsqrt (W0 m ρ c),
    show W1 m ρ c (Proc.devRef .tc main_cst_3) = _ from first_zero (W0 m ρ c)]
  rfl

theorem W3_dcol : W3 m ρ c (Proc.devRef .tc main_v18) = (dinvColumn m c) :=
  (column_result (W2 m ρ c)).trans (by rw [show W2 m ρ c (Proc.devRef .tc main_v17) = _ from W2_dinv m ρ c]; rfl)
theorem W4_dcol : W4 m ρ c (Proc.devRef .tc main_v18) = (dinvColumn m c) :=
  ((W4_arr m ρ c 2).trans (((dat0 (V3 m ρ) c).arrAt_in 2 rfl _).trans (A_eq0 (V3 m ρ) c 2))).trans (W3_dcol m ρ c)
theorem W6_dcol : W6 m ρ c (Proc.devRef .tc main_v18) = (dinvColumn m c) :=
  calc W6 m ρ c (Proc.devRef .tc main_v18)
    _ = W5 m ρ c (Proc.devRef .tc main_v18) := by unwritten
    _ = W4 m ρ c (Proc.devRef .tc main_v18) := by unwritten
    _ = (dinvColumn m c) := W4_dcol m ρ c
theorem W7_dcol : W7 m ρ c (Proc.devRef .tc main_v18) = (dinvColumn m c) :=
  ((W7_arr m ρ c 2).trans (((dat1 (V6 m ρ) c).arrAt_in 2 rfl _).trans (A_eq1 (V6 m ρ) c 2))).trans (W6_dcol m ρ c)

/-! ## The argument arrays, never written -/

theorem W3_arg0 : W3 m ρ c (Proc.devRef .tc main_arg0) = (m ((c.tc : Thread nD τ).loc main_arg0)) :=
  calc W3 m ρ c (Proc.devRef .tc main_arg0)
    _ = W2 m ρ c (Proc.devRef .tc main_arg0) := by unwritten
    _ = W1 m ρ c (Proc.devRef .tc main_arg0) := by unwritten
    _ = W0 m ρ c (Proc.devRef .tc main_arg0) := by unwritten
    _ = (m ((c.tc : Thread nD τ).loc main_arg0)) := rfl

theorem W3_arg3 : W3 m ρ c (Proc.devRef .tc main_arg3) = (m ((c.tc : Thread nD τ).loc main_arg3)) :=
  calc W3 m ρ c (Proc.devRef .tc main_arg3)
    _ = W2 m ρ c (Proc.devRef .tc main_arg3) := by unwritten
    _ = W1 m ρ c (Proc.devRef .tc main_arg3) := by unwritten
    _ = W0 m ρ c (Proc.devRef .tc main_arg3) := by unwritten
    _ = (m ((c.tc : Thread nD τ).loc main_arg3)) := rfl

theorem W3_arg4 : W3 m ρ c (Proc.devRef .tc main_arg4) = (m ((c.tc : Thread nD τ).loc main_arg4)) :=
  calc W3 m ρ c (Proc.devRef .tc main_arg4)
    _ = W2 m ρ c (Proc.devRef .tc main_arg4) := by unwritten
    _ = W1 m ρ c (Proc.devRef .tc main_arg4) := by unwritten
    _ = W0 m ρ c (Proc.devRef .tc main_arg4) := by unwritten
    _ = (m ((c.tc : Thread nD τ).loc main_arg4)) := rfl
theorem W4_arg4 : W4 m ρ c (Proc.devRef .tc main_arg4) = (m ((c.tc : Thread nD τ).loc main_arg4)) :=
  (W4_of_ne m ρ c main_arg4 (by decide)).trans (W3_arg4 m ρ c)
theorem W6_arg4 : W6 m ρ c (Proc.devRef .tc main_arg4) = (m ((c.tc : Thread nD τ).loc main_arg4)) :=
  calc W6 m ρ c (Proc.devRef .tc main_arg4)
    _ = W5 m ρ c (Proc.devRef .tc main_arg4) := by unwritten
    _ = W4 m ρ c (Proc.devRef .tc main_arg4) := by unwritten
    _ = (m ((c.tc : Thread nD τ).loc main_arg4)) := W4_arg4 m ρ c
theorem W7_arg4 : W7 m ρ c (Proc.devRef .tc main_arg4) = (m ((c.tc : Thread nD τ).loc main_arg4)) :=
  (W7_of_ne m ρ c main_arg4 (by decide)).trans (W6_arg4 m ρ c)

theorem W3_arg5 : W3 m ρ c (Proc.devRef .tc main_arg5) = (m ((c.tc : Thread nD τ).loc main_arg5)) :=
  calc W3 m ρ c (Proc.devRef .tc main_arg5)
    _ = W2 m ρ c (Proc.devRef .tc main_arg5) := by unwritten
    _ = W1 m ρ c (Proc.devRef .tc main_arg5) := by unwritten
    _ = W0 m ρ c (Proc.devRef .tc main_arg5) := by unwritten
    _ = (m ((c.tc : Thread nD τ).loc main_arg5)) := rfl
theorem W4_arg5 : W4 m ρ c (Proc.devRef .tc main_arg5) = (m ((c.tc : Thread nD τ).loc main_arg5)) :=
  (W4_of_ne m ρ c main_arg5 (by decide)).trans (W3_arg5 m ρ c)
theorem W6_arg5 : W6 m ρ c (Proc.devRef .tc main_arg5) = (m ((c.tc : Thread nD τ).loc main_arg5)) :=
  calc W6 m ρ c (Proc.devRef .tc main_arg5)
    _ = W5 m ρ c (Proc.devRef .tc main_arg5) := by unwritten
    _ = W4 m ρ c (Proc.devRef .tc main_arg5) := by unwritten
    _ = (m ((c.tc : Thread nD τ).loc main_arg5)) := W4_arg5 m ρ c
theorem W7_arg5 : W7 m ρ c (Proc.devRef .tc main_arg5) = (m ((c.tc : Thread nD τ).loc main_arg5)) :=
  ((W7_arr m ρ c 1).trans (((dat1 (V6 m ρ) c).arrAt_in 1 rfl _).trans (A_eq1 (V6 m ρ) c 1))).trans (W6_arg5 m ρ c)

theorem W3_arg6 : W3 m ρ c (Proc.devRef .tc main_arg6) = (m ((c.tc : Thread nD τ).loc main_arg6)) :=
  calc W3 m ρ c (Proc.devRef .tc main_arg6)
    _ = W2 m ρ c (Proc.devRef .tc main_arg6) := by unwritten
    _ = W1 m ρ c (Proc.devRef .tc main_arg6) := by unwritten
    _ = W0 m ρ c (Proc.devRef .tc main_arg6) := by unwritten
    _ = (m ((c.tc : Thread nD τ).loc main_arg6)) := rfl
theorem W4_arg6 : W4 m ρ c (Proc.devRef .tc main_arg6) = (m ((c.tc : Thread nD τ).loc main_arg6)) :=
  (W4_of_ne m ρ c main_arg6 (by decide)).trans (W3_arg6 m ρ c)
theorem W6_arg6 : W6 m ρ c (Proc.devRef .tc main_arg6) = (m ((c.tc : Thread nD τ).loc main_arg6)) :=
  calc W6 m ρ c (Proc.devRef .tc main_arg6)
    _ = W5 m ρ c (Proc.devRef .tc main_arg6) := by unwritten
    _ = W4 m ρ c (Proc.devRef .tc main_arg6) := by unwritten
    _ = (m ((c.tc : Thread nD τ).loc main_arg6)) := W4_arg6 m ρ c
theorem W7_arg6 : W7 m ρ c (Proc.devRef .tc main_arg6) = (m ((c.tc : Thread nD τ).loc main_arg6)) :=
  (W7_of_ne m ρ c main_arg6 (by decide)).trans (W6_arg6 m ρ c)

/-! ## The regions' arrays -/

/-- After the first region its result array holds the input rows times the first weight, each row scaled. -/
theorem W4_product : W4 m ρ c (Proc.devRef .tc main_v19) = rowsScaled0 (m ((c.tc : Thread nD τ).loc main_arg0)) (m ((c.tc : Thread nD τ).loc main_arg3)) (dinvColumn m c) := by
  refine (W4_arr m ρ c 3).trans ((final0 (V3 m ρ) c).trans ?_)
  rw [show V3 m ρ c main_arg0 = _ from W3_arg0 m ρ c, show V3 m ρ c main_arg3 = _ from W3_arg3 m ρ c,
    show V3 m ρ c main_v18 = _ from W3_dcol m ρ c]

/-- The rectified first layer. -/
theorem W6_hidden : W6 m ρ c (Proc.devRef .tc main_v40)
    = layerWide (rowsScaled0 (m ((c.tc : Thread nD τ).loc main_arg0)) (m ((c.tc : Thread nD τ).loc main_arg3)) (dinvColumn m c)) (dinvColumn m c) (Cert.ReferenceIdeal.Read.val_main_v8 (F := Ideal) (m ((c.tc : Thread nD τ).loc main_arg2))) (Cert.ReferenceIdeal.Read.val_main_v3 (F := Ideal) (m ((c.tc : Thread nD τ).loc main_arg1))) (Cert.ReferenceIdeal.Read.val_main_v6 (F := Ideal) (m ((c.tc : Thread nD τ).loc main_arg1))) (m ((c.tc : Thread nD τ).loc main_arg4)) := by
  refine (wide_result (W4 m ρ c)).trans ?_
  rw [W4_product m ρ c, W4_dcol m ρ c, W4_ew m ρ c, W4_src m ρ c, W4_dst m ρ c, W4_arg4 m ρ c]

/-- After the second region its result array holds the hidden rows times the second weight, each row scaled. -/
theorem W7_product : W7 m ρ c (Proc.devRef .tc main_v41)
    = rowsScaled1 (layerWide (rowsScaled0 (m ((c.tc : Thread nD τ).loc main_arg0)) (m ((c.tc : Thread nD τ).loc main_arg3)) (dinvColumn m c)) (dinvColumn m c) (Cert.ReferenceIdeal.Read.val_main_v8 (F := Ideal) (m ((c.tc : Thread nD τ).loc main_arg2))) (Cert.ReferenceIdeal.Read.val_main_v3 (F := Ideal) (m ((c.tc : Thread nD τ).loc main_arg1))) (Cert.ReferenceIdeal.Read.val_main_v6 (F := Ideal) (m ((c.tc : Thread nD τ).loc main_arg1))) (m ((c.tc : Thread nD τ).loc main_arg4))) (m ((c.tc : Thread nD τ).loc main_arg5)) (dinvColumn m c) := by
  refine (W7_arr m ρ c 3).trans ((final1 (V6 m ρ) c).trans ?_)
  rw [show V6 m ρ c main_v40 = _ from W6_hidden m ρ c, show V6 m ρ c main_arg5 = _ from W6_arg5 m ρ c,
    show V6 m ρ c main_v18 = _ from W6_dcol m ρ c]

/-! ## The result -/

/-- The kernel's result of the argument arrays. -/
def kernelValue : FVec Ideal S100000x1 .f32 :=
  layerNarrow
    (rowsScaled1 (layerWide (rowsScaled0 (m ((c.tc : Thread nD τ).loc main_arg0)) (m ((c.tc : Thread nD τ).loc main_arg3)) (dinvColumn m c)) (dinvColumn m c) (Cert.ReferenceIdeal.Read.val_main_v8 (F := Ideal) (m ((c.tc : Thread nD τ).loc main_arg2))) (Cert.ReferenceIdeal.Read.val_main_v3 (F := Ideal) (m ((c.tc : Thread nD τ).loc main_arg1))) (Cert.ReferenceIdeal.Read.val_main_v6 (F := Ideal) (m ((c.tc : Thread nD τ).loc main_arg1))) (m ((c.tc : Thread nD τ).loc main_arg4))) (m ((c.tc : Thread nD τ).loc main_arg5)) (dinvColumn m c))
    (dinvColumn m c) (Cert.ReferenceIdeal.Read.val_main_v8 (F := Ideal) (m ((c.tc : Thread nD τ).loc main_arg2))) (Cert.ReferenceIdeal.Read.val_main_v3 (F := Ideal) (m ((c.tc : Thread nD τ).loc main_arg1))) (Cert.ReferenceIdeal.Read.val_main_v6 (F := Ideal) (m ((c.tc : Thread nD τ).loc main_arg1))) (m ((c.tc : Thread nD τ).loc main_arg6))

/-- The fold's final contents at the result buffer are that function of the argument arrays. -/
theorem result_value : W8 m ρ c (Proc.devRef .tc main_v59) = kernelValue m c := by
  refine (narrow_result (W7 m ρ c)).trans ?_
  rw [W7_product m ρ c, W7_dcol m ρ c, W7_ew m ρ c, W7_src m ρ c, W7_dst m ρ c, W7_arg6 m ρ c]
  rfl

end Cert.KernelIdeal.HostChain

end
-- ==== Proof.GcnLaw.lean ====
/-
  The algebra that joins the two arrangements of a graph-convolution layer, on the extended reals.

  Fix a destination node and let `s` be the set of edges landing on it.  One arrangement scales every node's
  feature row by that node's inverse-root degree first, weights and sums the gathered rows, and scales the sum by the
  destination's inverse-root degree `d` at the end; the other forms the edge coefficient
  (source factor · weight · destination factor) first and sums coefficient · feature.  The two agree because
  multiplication of extended reals is commutative and associative, and because a factor `d` that is nonnegative and
  not `⊤` distributes over a finite sum of arbitrary extended reals.  An inverse-root degree is such a factor:
  it is either zero or the reciprocal square root of a positive quantity, which is a nonnegative real (zero at `⊤`).
-/
import Idealize.ShloMosaic.PureOps.Ideal

namespace Cert.GcnLaw

open Idealize.ShloMosaic

/-- A nonnegative factor other than `⊤` distributes over a finite sum of extended reals. -/
theorem mul_sum_of_nonneg_of_ne_top {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- One entry of a layer, in its two arrangements: `w` the edge weights, `z` the gathered features, `ds` the
    source factors, `dd` the destination factors (equal to `d` on the edges that land here), `b` the bias. -/
theorem layer_entry {ι : Type} (s : Finset ι) (d : EReal) (h0 : 0 ≤ d) (ht : d ≠ ⊤) (w z ds dd : ι → EReal)
    (hdd : ∀ e ∈ s, dd e = d) (b : EReal) :
    d * (0 + ∑ e ∈ s, w e * (z e * ds e)) + b = (0 + ∑ e ∈ s, ((ds e * w e) * dd e) * z e) + b := by
  rw [zero_add, zero_add, mul_sum_of_nonneg_of_ne_top s d h0 ht]
  congr 1
  refine Finset.sum_congr rfl fun e he => ?_
  rw [hdd e he]
  ac_rfl

/-- The reciprocal square root of a positive extended real is a nonnegative real. -/
theorem rsqrt_of_pos (y : EReal) (hy : 0 < y) : 0 ≤ Ideal.rsqrt y ∧ Ideal.rsqrt y ≠ ⊤ := by
  induction y using EReal.rec with
  | bot => exact absurd hy (by simp)
  | top => exact ⟨le_refl _, EReal.zero_ne_top⟩
  | coe r =>
    have hr : 0 < r := by exact_mod_cast hy
    rw [Ideal.rsqrt_coe, if_neg (not_lt.2 hr.le), if_neg hr.ne']
    exact ⟨by exact_mod_cast (inv_nonneg.2 (Real.sqrt_nonneg r)), EReal.coe_ne_top _⟩

/-- The guarded inverse-root degree — the reciprocal square root of `max deg ε` where `deg` is positive, zero
    elsewhere — is nonnegative and not `⊤`, whatever `deg` and `ε` are. -/
theorem guarded_rsqrt (deg ε : EReal) :
    0 ≤ (if 0 < deg then Ideal.rsqrt (max deg ε) else 0) ∧ (if 0 < deg then Ideal.rsqrt (max deg ε) else 0) ≠ ⊤ := by
  by_cases h : 0 < deg
  · rw [if_pos h]
    exact rsqrt_of_pos _ (lt_of_lt_of_le h (le_max_left _ _))
  · rw [if_neg h]
    exact ⟨le_refl _, EReal.zero_ne_top⟩

end Cert.GcnLaw
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.LibGatherRows.lean ====
/-
  A host gather of whole rows, read at one element.

  Two layouts of the same indexing x[idx] along one axis.  For a matrix of shape [N, C] and start indices of shape
  [E, 1] (one row number per result row), the result [E, C] holds at (e, c) the operand's element (r, c), where r is
  the start index of e read as a signed integer and clamped into [0, N - 1].  For a rank-3 array of shape [B, N, C]
  gathered along its MIDDLE axis (x[:, idx]), the result [B, E, C] holds at (b, e, c) the operand's element (b, r, c)
  with the same r.  The clamp is the gather's own: a start index below zero reads row 0, one past the end reads the
  last row.
-/
import Idealize.ShloMosaic.PureOps.ShapeOps
import Idealize.ShloMosaic.Lib.ValueIdx

namespace Cert.GatherRows

open Idealize.ShloMosaic Idealize.ShloMosaic.ValueIdx

variable {α : Type} {B N E C w : Nat}

/-- The row a start index names: read signed, clamped into [0, N - 1]. -/
def row (hN : 0 < N) (idx : IVec ⟨2, ![E, 1]⟩ w) (e : Fin E) : Fin N :=
  ⟨min (idx (ix2 e 0)).toInt.toNat (N - 1), by omega⟩

/-! ## Rows of a matrix -/

/-- The dimension numbers of x[idx] on a matrix: axis 0 collapsed and indexed, axis 1 carried over whole. -/
abbrev rowsDims (N E C : Nat) (sb : List (Fin 2))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

theorem rowsDims_apply (hN : 0 < N) (sb : List (Fin 2))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (c : Fin C) :
    Host.gather (rowsDims N E C sb wf) x idx (ix2 e c) = x (ix2 (row hN idx e) c) := by
  unfold Host.gather
  congr 1
  funext a
  refine Fin.ext ?_
  match a with
  | ⟨0, _⟩ =>
    show (rowsDims N E C sb wf).start (ix2 e c) idx 0 + (rowsDims N E C sb wf).batchCoord (ix2 e c) 0
      + (rowsDims N E C sb wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C sb wf).startIndexMap from List.mem_singleton.mpr rfl)]
    have hsi : (rowsDims N E C sb wf).siIdx (ix2 e c) ⟨List.idxOf (0 : Fin 2) (rowsDims N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C sb wf).start (ix2 e c) idx 1 + (rowsDims N E C sb wf).batchCoord (ix2 e c) 1
      + (rowsDims N E C sb wf).offCoord (ix2 e c) 1 = c.val
    rw [GatherDims.batchCoord_eq_zero _ _ _ List.not_mem_nil]
    have hst : (rowsDims N E C sb wf).start (ix2 e c) idx 1 = 0 := by
      unfold GatherDims.start
      rw [dif_neg (by simp)]
    have hoc : (rowsDims N E C sb wf).offCoord (ix2 e c) 1 = c.val := by
      unfold GatherDims.offCoord
      rw [dif_pos (by simp [GatherDims.sKept, Shape.kept])]
      rfl
    rw [hst, hoc]
    omega

/-- Rows of a matrix gathered: result (e, c) is the operand at (row of e, c). -/
theorem gather_rows2 (hN : 0 < N) (d : GatherDims ⟨2, ![N, C]⟩ ⟨2, ![E, 1]⟩ ⟨2, ![E, C]⟩)
    (hod : d.offsetDims = [1]) (hcs : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (c : Fin C) :
    Host.gather d x idx (ix2 e c) = x (ix2 (row hN idx e) c) := by
  obtain ⟨od, cs, ob, sb, sm, iv, ss, wf⟩ := d
  simp only at hod hcs hob hsm hiv hss
  subst hod hcs hob hsm hiv hss
  exact rowsDims_apply hN sb wf x idx e c

/-! ## Rows along the middle axis of a rank-3 array -/

/-- The dimension numbers of x[:, idx] on a rank-3 array: axis 1 collapsed and indexed, axes 0 and 2 carried over whole. -/
abbrev midDims (B N E C : Nat) (sb : List (Fin 2))
    (wf : GatherDims.WF ⟨3, ![B, N, C]⟩ ⟨2, ![E, 1]⟩ ⟨3, ![B, E, C]⟩ [0, 2] [1] [] [1] sb 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := sb
  startIndexMap := [1]
  indexVectorDim := 1
  sliceSizes := ![B, 1, C]
  wf := wf

theorem midDims_apply (hN : 0 < N) (sb : List (Fin 2))
    (wf : GatherDims.WF ⟨3, ![B, N, C]⟩ ⟨2, ![E, 1]⟩ ⟨3, ![B, E, C]⟩ [0, 2] [1] [] [1] sb 1 ![B, 1, C])
    (x : (⟨3, ![B, N, C]⟩ : Shape).Idx → α) (idx : IVec ⟨2, ![E, 1]⟩ w) (b : Fin B) (e : Fin E) (c : Fin C) :
    Host.gather (midDims B N E C sb wf) x idx (ix3 b e c) = x (ix3 b (row hN idx e) c) := by
  unfold Host.gather
  congr 1
  funext a
  refine Fin.ext ?_
  match a with
  | ⟨0, _⟩ =>
    show (midDims B N E C sb wf).start (ix3 b e c) idx 0 + (midDims B N E C sb wf).batchCoord (ix3 b e c) 0
      + (midDims B N E C sb wf).offCoord (ix3 b e c) 0 = b.val
    rw [GatherDims.batchCoord_eq_zero _ _ _ List.not_mem_nil]
    have hst : (midDims B N E C sb wf).start (ix3 b e c) idx 0 = 0 := by
      unfold GatherDims.start
      rw [dif_neg (by simp)]
    have hoc : (midDims B N E C sb wf).offCoord (ix3 b e c) 0 = b.val := by
      unfold GatherDims.offCoord
      rw [dif_pos (by simp [GatherDims.sKept, Shape.kept])]
      rfl
    rw [hst, hoc]
    omega
  | ⟨1, _⟩ =>
    show (midDims B N E C sb wf).start (ix3 b e c) idx 1 + (midDims B N E C sb wf).batchCoord (ix3 b e c) 1
      + (midDims B N E C sb wf).offCoord (ix3 b e c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N E C sb wf).startIndexMap from List.mem_singleton.mpr rfl)]
    have hsi : (midDims B N E C sb wf).siIdx (ix3 b e c) ⟨List.idxOf (1 : Fin 3) (midDims B N E C sb wf).startIndexMap,
        List.idxOf_lt_length_iff.2 (List.mem_singleton.mpr rfl)⟩ = ix2 e 0 := by
      funext b'; refine Fin.ext ?_
      match b' with
      | ⟨0, _⟩ => rfl
      | ⟨1, _⟩ => rfl
    rw [hsi]
    rfl
  | ⟨2, _⟩ =>
    show (midDims B N E C sb wf).start (ix3 b e c) idx 2 + (midDims B N E C sb wf).batchCoord (ix3 b e c) 2
      + (midDims B N E C sb wf).offCoord (ix3 b e c) 2 = c.val
    rw [GatherDims.batchCoord_eq_zero _ _ _ List.not_mem_nil]
    have hst : (midDims B N E C sb wf).start (ix3 b e c) idx 2 = 0 := by
      unfold GatherDims.start
      rw [dif_neg (by simp)]
    have hoc : (midDims B N E C sb wf).offCoord (ix3 b e c) 2 = c.val := by
      unfold GatherDims.offCoord
      rw [dif_pos (by simp [GatherDims.sKept, Shape.kept])]
      rfl
    rw [hst, hoc]
    omega

/-- Rows gathered along the middle axis of a rank-3 array: result (b, e, c) is the operand at (b, row of e, c). -/
theorem gather_mid3 (hN : 0 < N) (d : GatherDims ⟨3, ![B, N, C]⟩ ⟨2, ![E, 1]⟩ ⟨3, ![B, E, C]⟩)
    (hod : d.offsetDims = [0, 2]) (hcs : d.collapsedSliceDims = [1]) (hob : d.operandBatchingDims = [])
    (hsm : d.startIndexMap = [1]) (hiv : d.indexVectorDim = 1) (hss : d.sliceSizes = ![B, 1, C])
    (x : (⟨3, ![B, N, C]⟩ : Shape).Idx → α) (idx : IVec ⟨2, ![E, 1]⟩ w) (b : Fin B) (e : Fin E) (c : Fin C) :
    Host.gather d x idx (ix3 b e c) = x (ix3 b (row hN idx e) c) := by
  obtain ⟨od, cs, ob, sb, sm, iv, ss, wf⟩ := d
  simp only at hod hcs hob hsm hiv hss
  subst hod hcs hob hsm hiv hss
  exact midDims_apply hN sb wf x idx b e c

end Cert.GatherRows
-- ==== Proof.BridgeFacts.lean ====
/-
  Facts about single entries that join the kernel's arrangement of a graph-convolution layer to the reference's.

  * The reference's two products, read at an entry, are plain sums over the shared axis.
  * Both programs gather node rows at the same start indices: the source (or destination) position of every edge,
    a negative position wrapped once by the node count.
  * An edge lands on node `j` in the scatter-add exactly when its destination position, read as a signed integer,
    is `j`; such a position is not negative, so the wrap leaves it alone and the gather's clamp keeps it: the
    destination factor the reference reads for that edge is node `j`'s.
  * The guarded inverse-root degree of a node — the reciprocal square root of the degree (kept above a tiny positive
    bound) where the degree is positive, zero elsewhere — is a nonnegative extended real other than `⊤`.
-/
import proofs.«155296_j67216238182417_2_alg».proof.Proof.KStretches
import proofs.«155296_j67216238182417_2_alg».proof.Proof.GcnLaw
import proofs.«155296_j67216238182417_2_alg».proof.Proof.LibHostProduct
import proofs.«155296_j67216238182417_2_alg».proof.Proof.LibHostLayout
import proofs.«155296_j67216238182417_2_alg».proof.Proof.LibGatherRows
import Idealize.ShloMosaic.Lib.ValueIdx

noncomputable section

namespace Cert.Bridge

open Cert.KernelIdeal Cert.KernelIdeal.Gen Cert.KernelIdeal.HostChain
open Idealize.ShloMosaic Idealize.ShloMosaic.ValueIdx

/-! ## The reference's products at an entry -/

theorem wideProduct_contr_rank : Cert.ReferenceIdeal.dot_S100000x128_S128x64_S100000x64_1_0_0_1_n_n.contr.rank = 1 := rfl
theorem wideProduct_contr_size : Cert.ReferenceIdeal.dot_S100000x128_S128x64_S100000x64_1_0_0_1_n_n.contr.size ⟨0, by decide⟩ = 128 := rfl
theorem wideProduct_lhs_row (j : S100000x64.Idx) (k : Cert.ReferenceIdeal.dot_S100000x128_S128x64_S100000x64_1_0_0_1_n_n.contr.Idx) : (Cert.ReferenceIdeal.dot_S100000x128_S128x64_S100000x64_1_0_0_1_n_n.lhsIdx j k (0 : Fin 2)).val = (j (0 : Fin 2)).val := by
  unfold DotDims.lhsIdx
  rw [dif_neg (show ¬(0 : Fin S100000x128.rank) ∈ Cert.ReferenceIdeal.dot_S100000x128_S128x64_S100000x64_1_0_0_1_n_n.lhsBatch by decide),
    dif_pos (show (0 : Fin S100000x128.rank) ∈ Cert.ReferenceIdeal.dot_S100000x128_S128x64_S100000x64_1_0_0_1_n_n.lhsNonContracting by decide)]
  rfl
theorem wideProduct_lhs_col (j : S100000x64.Idx) (k : Cert.ReferenceIdeal.dot_S100000x128_S128x64_S100000x64_1_0_0_1_n_n.contr.Idx) : (Cert.ReferenceIdeal.dot_S100000x128_S128x64_S100000x64_1_0_0_1_n_n.lhsIdx j k (1 : Fin 2)).val = (k ⟨0, by decide⟩).val :=
  Cert.ReferenceIdeal.dot_S100000x128_S128x64_S100000x64_1_0_0_1_n_n.lhsIdx_val_of_single rfl j k
theorem wideProduct_rhs_row (j : S100000x64.Idx) (k : Cert.ReferenceIdeal.dot_S100000x128_S128x64_S100000x64_1_0_0_1_n_n.contr.Idx) : (Cert.ReferenceIdeal.dot_S100000x128_S128x64_S100000x64_1_0_0_1_n_n.rhsIdx j k (0 : Fin 2)).val = (k ⟨0, by decide⟩).val :=
  Cert.ReferenceIdeal.dot_S100000x128_S128x64_S100000x64_1_0_0_1_n_n.rhsIdx_val_of_single rfl j k
theorem wideProduct_rhs_col (j : S100000x64.Idx) (k : Cert.ReferenceIdeal.dot_S100000x128_S128x64_S100000x64_1_0_0_1_n_n.contr.Idx) : (Cert.ReferenceIdeal.dot_S100000x128_S128x64_S100000x64_1_0_0_1_n_n.rhsIdx j k (1 : Fin 2)).val = (j (1 : Fin 2)).val := by
  unfold DotDims.rhsIdx
  rw [dif_neg (show ¬(1 : Fin S128x64.rank) ∈ Cert.ReferenceIdeal.dot_S100000x128_S128x64_S100000x64_1_0_0_1_n_n.rhsBatch by decide),
    dif_pos (show (1 : Fin S128x64.rank) ∈ Cert.ReferenceIdeal.dot_S100000x128_S128x64_S100000x64_1_0_0_1_n_n.rhsNonContracting by decide)]
  rfl

theorem narrowProduct_contr_rank : Cert.ReferenceIdeal.dot_S100000x64_S64x1_S100000x1_1_0_0_1_n_n.contr.rank = 1 := rfl
theorem narrowProduct_contr_size : Cert.ReferenceIdeal.dot_S100000x64_S64x1_S100000x1_1_0_0_1_n_n.contr.size ⟨0, by decide⟩ = 64 := rfl
theorem narrowProduct_lhs_row (j : S100000x1.Idx) (k : Cert.ReferenceIdeal.dot_S100000x64_S64x1_S100000x1_1_0_0_1_n_n.contr.Idx) : (Cert.ReferenceIdeal.dot_S100000x64_S64x1_S100000x1_1_0_0_1_n_n.lhsIdx j k (0 : Fin 2)).val = (j (0 : Fin 2)).val := by
  unfold DotDims.lhsIdx
  rw [dif_neg (show ¬(0 : Fin S100000x64.rank) ∈ Cert.ReferenceIdeal.dot_S100000x64_S64x1_S100000x1_1_0_0_1_n_n.lhsBatch by decide),
    dif_pos (show (0 : Fin S100000x64.rank) ∈ Cert.ReferenceIdeal.dot_S100000x64_S64x1_S100000x1_1_0_0_1_n_n.lhsNonContracting by decide)]
  rfl
theorem narrowProduct_lhs_col (j : S100000x1.Idx) (k : Cert.ReferenceIdeal.dot_S100000x64_S64x1_S100000x1_1_0_0_1_n_n.contr.Idx) : (Cert.ReferenceIdeal.dot_S100000x64_S64x1_S100000x1_1_0_0_1_n_n.lhsIdx j k (1 : Fin 2)).val = (k ⟨0, by decide⟩).val :=
  Cert.ReferenceIdeal.dot_S100000x64_S64x1_S100000x1_1_0_0_1_n_n.lhsIdx_val_of_single rfl j k
theorem narrowProduct_rhs_row (j : S100000x1.Idx) (k : Cert.ReferenceIdeal.dot_S100000x64_S64x1_S100000x1_1_0_0_1_n_n.contr.Idx) : (Cert.ReferenceIdeal.dot_S100000x64_S64x1_S100000x1_1_0_0_1_n_n.rhsIdx j k (0 : Fin 2)).val = (k ⟨0, by decide⟩).val :=
  Cert.ReferenceIdeal.dot_S100000x64_S64x1_S100000x1_1_0_0_1_n_n.rhsIdx_val_of_single rfl j k
theorem narrowProduct_rhs_col (j : S100000x1.Idx) (k : Cert.ReferenceIdeal.dot_S100000x64_S64x1_S100000x1_1_0_0_1_n_n.contr.Idx) : (Cert.ReferenceIdeal.dot_S100000x64_S64x1_S100000x1_1_0_0_1_n_n.rhsIdx j k (1 : Fin 2)).val = (j (1 : Fin 2)).val := by
  unfold DotDims.rhsIdx
  rw [dif_neg (show ¬(1 : Fin S64x1.rank) ∈ Cert.ReferenceIdeal.dot_S100000x64_S64x1_S100000x1_1_0_0_1_n_n.rhsBatch by decide),
    dif_pos (show (1 : Fin S64x1.rank) ∈ Cert.ReferenceIdeal.dot_S100000x64_S64x1_S100000x1_1_0_0_1_n_n.rhsNonContracting by decide)]
  rfl

/-- Input rows times the first weight, at an entry. -/
theorem wideProduct_entry (x0 : FVec Ideal S100000x128 .f32) (x3 : FVec Ideal S128x64 .f32) (r : Fin 100000) (k : Fin 64) :
    Host.dotGeneral (F := Ideal) Cert.ReferenceIdeal.dot_S100000x128_S128x64_S100000x64_1_0_0_1_n_n none x0 x3 (ix2 r k) = ∑ q : Fin 128, x0 (ix2 r q) * x3 (ix2 q k) :=
  Cert.HostProduct.dotGeneral_entry Cert.ReferenceIdeal.dot_S100000x128_S128x64_S100000x64_1_0_0_1_n_n wideProduct_contr_rank wideProduct_contr_size wideProduct_lhs_row
    wideProduct_lhs_col wideProduct_rhs_row wideProduct_rhs_col x0 x3 r k

/-- Hidden rows times the second weight, at an entry. -/
theorem narrowProduct_entry (h : FVec Ideal S100000x64 .f32) (x5 : FVec Ideal S64x1 .f32) (r : Fin 100000) (u : Fin 1) :
    Host.dotGeneral (F := Ideal) Cert.ReferenceIdeal.dot_S100000x64_S64x1_S100000x1_1_0_0_1_n_n none h x5 (ix2 r u) = ∑ q : Fin 64, h (ix2 r q) * x5 (ix2 q u) :=
  Cert.HostProduct.dotGeneral_entry Cert.ReferenceIdeal.dot_S100000x64_S64x1_S100000x1_1_0_0_1_n_n narrowProduct_contr_rank narrowProduct_contr_size narrowProduct_lhs_row
    narrowProduct_lhs_col narrowProduct_rhs_row narrowProduct_rhs_col h x5 r u

/-! ## The start indices -/

/-- A signed position that is a natural number is not negative: the wrap leaves it alone. -/
theorem wrap_of_nonneg (d z n : BitVec 32) (hz : z = 0#32) (j : ℕ) (h : d.toInt = (j : ℤ)) :
    Scalar.select (IntOp.cmpi .slt d z) (IntOp.addi d n) d = d := by
  subst hz
  unfold Scalar.select IntOp.cmpi
  have hs : d.slt 0#32 = false := by
    simp only [BitVec.slt, h, BitVec.toInt_zero]
    exact decide_eq_false (by omega)
  simp only [hs]
  rfl

/-- A position below the node count survives the gather's clamp. -/
theorem clamp_of_lt (d : BitVec 32) (N : ℕ) (j : Fin N) (h : d.toInt = (j.val : ℤ)) :
    min d.toInt.toNat (N - 1) = j.val := by
  have := j.isLt
  rw [h, Int.toNat_natCast]
  omega

/-- The start-index column at an edge whose position is a node: the position itself. -/
theorem startCol_of_node (pos : IVec S3300000 32) (e : Fin 3300000) (j : ℕ) (h : (pos (ix1 e)).toInt = (j : ℤ)) :
    startCol pos (ix2 e (0 : Fin 1)) = pos (ix1 e) := by
  unfold startCol
  rw [Cert.HostLayout.broadcastInDim_a_a1_apply, select_apply]
  exact wrap_of_nonneg _ _ _ (Cert.HostLayout.broadcastInDim_scalar_apply _ _ _) j h

/-- An edge that lands on node `j` reads node `j`'s row when rows are gathered at the destinations. -/
theorem landed_row (pos : IVec S3300000 32) (e : Fin 3300000) (j : Fin 100000)
    (h : ((broadcastInDim S3300000x1 ![0] bcast_S3300000_S3300000x1_0 pos : IVec S3300000x1 32) (ix2 e (0 : Fin 1))).toInt
      = (j.val : ℤ)) :
    Cert.GatherRows.row (N := 100000) (by decide) (startCol pos) e = j := by
  rw [Cert.HostLayout.broadcastInDim_a_a1_apply] at h
  apply Fin.ext
  show min ((startCol pos) (ix2 e 0)).toInt.toNat (100000 - 1) = j.val
  rw [startCol_of_node pos e j.val h]
  exact clamp_of_lt _ 100000 j h

/-- The three start-index columns the reference builds from the sources, and the one from the destinations, are the
    kernel's. -/
theorem refStart_src1 (x1) : Cert.ReferenceIdeal.Read.val_main_v24 (F := Ideal) x1 = startCol (Cert.ReferenceIdeal.Read.val_main_v3 (F := Ideal) x1) := rfl
theorem refStart_src2 (x1) : Cert.ReferenceIdeal.Read.val_main_v41 (F := Ideal) x1 = startCol (Cert.ReferenceIdeal.Read.val_main_v3 (F := Ideal) x1) := rfl
theorem refStart_dst (x1) : Cert.ReferenceIdeal.Read.val_main_v32 (F := Ideal) x1 = startCol (Cert.ReferenceIdeal.Read.val_main_v6 (F := Ideal) x1) := rfl
theorem refStart_src3 (x1) : Cert.ReferenceIdeal.Read.val_main_v67 (F := Ideal) x1 = startCol (Cert.ReferenceIdeal.Read.val_main_v3 (F := Ideal) x1) := rfl
theorem refStart_src4 (x1) : Cert.ReferenceIdeal.Read.val_main_v84 (F := Ideal) x1 = startCol (Cert.ReferenceIdeal.Read.val_main_v3 (F := Ideal) x1) := rfl
theorem refStart_dst2 (x1) : Cert.ReferenceIdeal.Read.val_main_v75 (F := Ideal) x1 = startCol (Cert.ReferenceIdeal.Read.val_main_v6 (F := Ideal) x1) := rfl
/-- The reference computes the inverse-root degree twice, by the same operations. -/
theorem refDinv_again (x1 x2) : Cert.ReferenceIdeal.Read.val_main_v61 (F := Ideal) x1 x2 = Cert.ReferenceIdeal.Read.val_main_v18 (F := Ideal) x1 x2 := rfl

/-! ## The inverse-root degree -/

/-- A comparison's bit selects like the comparison. -/
theorem select_ofBool (p : Prop) [Decidable p] (a b : EReal) :
    Scalar.select (BitVec.ofBool (decide p)) a b = if p then a else b := by
  unfold Scalar.select
  by_cases hp : p
  · simp [hp]
  · simp [hp]

/-- The guard applied to an arbitrary degree array, at a node: the reciprocal square root of the degree kept above a
    bound where the degree is positive, zero elsewhere. -/
theorem guard_entry (deg : FVec Ideal S100000 .f32) (ε : BitVec 32) (j : Fin 100000) :
    0 ≤ (select (cmpf .ogt deg (broadcastInDim S100000 ![] bcast_S_S100000 (constant (F := Ideal) S_ .f32 0x00000000#32)))
          (Host.rsqrt (maximumf deg (broadcastInDim S100000 ![] bcast_S_S100000 (constant (F := Ideal) S_ .f32 ε))))
          (broadcastInDim S100000 ![] bcast_S_S100000 (id (constant (F := Ideal) S_ .f32 0x00000000#32)))
            : FVec Ideal S100000 .f32) (ix1 j)
    ∧ (select (cmpf .ogt deg (broadcastInDim S100000 ![] bcast_S_S100000 (constant (F := Ideal) S_ .f32 0x00000000#32)))
          (Host.rsqrt (maximumf deg (broadcastInDim S100000 ![] bcast_S_S100000 (constant (F := Ideal) S_ .f32 ε))))
          (broadcastInDim S100000 ![] bcast_S_S100000 (id (constant (F := Ideal) S_ .f32 0x00000000#32)))
            : FVec Ideal S100000 .f32) (ix1 j) ≠ ⊤ := by
  have hz : ∀ i : S100000.Idx, (broadcastInDim S100000 ![] bcast_S_S100000 (constant (F := Ideal) S_ .f32 0x00000000#32)
      : FVec Ideal S100000 .f32) i = 0 :=
    fun i => (Cert.HostLayout.broadcastInDim_scalar_apply _ _ i).trans Ideal.ofBits_zero_f32
  have hz' : ∀ i : S100000.Idx, (broadcastInDim S100000 ![] bcast_S_S100000 (id (constant (F := Ideal) S_ .f32 0x00000000#32))
      : FVec Ideal S100000 .f32) i = 0 :=
    fun i => (Cert.HostLayout.broadcastInDim_scalar_apply _ _ i).trans Ideal.ofBits_zero_f32
  have key : (select (cmpf .ogt deg (broadcastInDim S100000 ![] bcast_S_S100000 (constant (F := Ideal) S_ .f32 0x00000000#32)))
          (Host.rsqrt (maximumf deg (broadcastInDim S100000 ![] bcast_S_S100000 (constant (F := Ideal) S_ .f32 ε))))
          (broadcastInDim S100000 ![] bcast_S_S100000 (id (constant (F := Ideal) S_ .f32 0x00000000#32)))
            : FVec Ideal S100000 .f32) (ix1 j)
      = (if 0 < deg (ix1 j) then Ideal.rsqrt (max (deg (ix1 j))
          ((broadcastInDim S100000 ![] bcast_S_S100000 (constant (F := Ideal) S_ .f32 ε) : FVec Ideal S100000 .f32) (ix1 j))) else 0) := by
    rw [select_apply, hz']
    show Scalar.select (BitVec.ofBool (decide ((broadcastInDim S100000 ![] bcast_S_S100000
      (constant (F := Ideal) S_ .f32 0x00000000#32) : FVec Ideal S100000 .f32) (ix1 j) < deg (ix1 j)))) _ 0 = _
    rw [hz, select_ofBool]
    rfl
  rw [key]
  exact Cert.GcnLaw.guarded_rsqrt _ _

/-- The inverse-root degree of a node is nonnegative and not `⊤`. -/
theorem dinv_entry (x1 x2) (j : Fin 100000) :
    0 ≤ Cert.ReferenceIdeal.Read.val_main_v18 (F := Ideal) x1 x2 (ix1 j) ∧ Cert.ReferenceIdeal.Read.val_main_v18 (F := Ideal) x1 x2 (ix1 j) ≠ ⊤ :=
  guard_entry (Cert.ReferenceIdeal.Read.val_main_v12 (F := Ideal) x1 x2) 0x2B8CBCCC#32 j

end Cert.Bridge

end
-- ==== Proof.LibScatterRows.lean ====
/-
  A host scatter whose combiner is float addition, read at one element, for the dimension numbers of a segment
  sum over rows: scatter indices of shape [E, 1] (one start coordinate per update row, on operand axis 0), the
  operand's axis 0 inserted, every other axis a window axis carried over unchanged.  At the
  ideal instance the result element (n, rest) is the operand's element plus the sum, over the update rows
  e whose start index is n, of the update element (e, rest).  Three ranks are stated: a vector [N],
  a matrix [N, C] and a rank-3 array [N, 1, C].
-/
import Idealize.ShloMosaic.PureOps.Ideal
import Idealize.ShloMosaic.Lib.ValueIdx

noncomputable section

namespace Cert.ScatterRows

open Idealize.ShloMosaic Idealize.ShloMosaic.ValueIdx

/-- An update index lands on the operand index `i` exactly when, on every operand axis, its start
    coordinate plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h2 := h a
      rw [← hf]
      simp only
      rw [Int.toNat_of_nonneg h2.1]
    · intro hf
      funext a
      apply Fin.ext
      simp only
      rw [hf a]
      exact Int.toNat_natCast _
  · rename_i h
    constructor
    · intro hf
      cases hf
    · intro hf
      exfalso
      apply h
      intro a
      rw [hf a]
      exact ⟨Int.natCast_nonneg _, by exact_mod_cast (i a).isLt⟩

section Rank2
variable {N E C w : Nat}

/-- Matrix case: the scatter-indices position read for an update index is `(row, 0)`. -/
theorem siIdx2 (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Matrix case: an update index lands on `(n, c)` exactly when its row's start index is `n` and its column is `c`. -/
theorem resultIdx2_iff (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (idx : IVec ⟨2, ![E, 1]⟩ w)
    (n : Fin N) (c : Fin C) :
    d.resultIdx? j idx = some (ix2 n c) ↔ (idx (ix2 (j 0) 0)).toInt = (n.val : ℤ) ∧ (j 1).val = c.val := by
  rw [resultIdx?_eq_some_iff, Fin.forall_fin_two]
  have hs := siIdx2 d huw hiw hsd hiv j
  obtain ⟨uw, iw, sd, iv, wf⟩ := d
  simp only at huw hiw hsd hiv
  subst huw hiw hsd hiv
  have s0 : ScatterDims.start ⟨[1], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1], [0], [0], 1, wf⟩ j idx 1 = 0 := by
    unfold ScatterDims.start
    rw [dif_neg (by simp)]
  have w0 : ScatterDims.window ⟨[1], [0], [0], 1, wf⟩ j 0 = 0 := by
    unfold ScatterDims.window
    rw [dif_neg (by simp [ScatterDims.sKept, Shape.kept])]
  have w1 : ScatterDims.window ⟨[1], [0], [0], 1, wf⟩ j 1 = (j 1).val := by
    unfold ScatterDims.window
    rw [dif_pos (by simp [ScatterDims.sKept, Shape.kept])]
    rfl
  rw [s0, s1, w0, w1]
  show (idx (ix2 (j 0) 0)).toInt + ((0 : ℕ) : ℤ) = (n.val : ℤ) ∧ (0 : ℤ) + (((j 1).val : ℕ) : ℤ) = (c.val : ℤ) ↔ _
  constructor
  · rintro ⟨h1, h2⟩
    exact ⟨by omega, by omega⟩
  · rintro ⟨h1, h2⟩
    exact ⟨by omega, by omega⟩

end Rank2

section Rank1
variable {N E w : Nat}

/-- Vector case: the scatter-indices position read for an update index is `(row, 0)`. -/
theorem siIdx1 (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Vector case: an update index lands on `n` exactly when its row's start index is `n`. -/
theorem resultIdx1_iff (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (idx : IVec ⟨2, ![E, 1]⟩ w) (n : Fin N) :
    d.resultIdx? j idx = some (ix1 n) ↔ (idx (ix2 (j 0) 0)).toInt = (n.val : ℤ) := by
  rw [resultIdx?_eq_some_iff, Fin.forall_fin_one]
  have hs := siIdx1 d huw hiw hsd hiv j
  obtain ⟨uw, iw, sd, iv, wf⟩ := d
  simp only at huw hiw hsd hiv
  subst huw hiw hsd hiv
  have s0 : ScatterDims.start ⟨[], [0], [0], 1, wf⟩ j idx 0 = (idx (ix2 (j 0) 0)).toInt := by
    unfold ScatterDims.start
    rw [dif_pos (show _ from List.mem_singleton.2 rfl)]
    exact congrArg (fun t => (idx t).toInt) (hs _)
  have w0 : ScatterDims.window ⟨[], [0], [0], 1, wf⟩ j 0 = 0 := by
    unfold ScatterDims.window
    rw [dif_neg (by simp [ScatterDims.sKept, Shape.kept])]
  rw [s0, w0]
  show (idx (ix2 (j 0) 0)).toInt + ((0 : ℕ) : ℤ) = (n.val : ℤ) ↔ _
  constructor
  · intro h1
    omega
  · intro h1
    omega

end Rank1

section Rank3
variable {N E C w : Nat}

/-- Rank-3 case: the scatter-indices position read for an update index is `(row, 0)`. -/
theorem siIdx3 (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Rank-3 case: an update index lands on `(n, 0, c)` exactly when its row's start index is `n` and its last
    coordinate is `c` (the middle coordinate lives on a unit axis, so it is `0` on both sides). -/
theorem resultIdx3_iff (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (idx : IVec ⟨2, ![E, 1]⟩ w) (n : Fin N) (c : Fin C) :
    d.resultIdx? j idx = some (ix3 n 0 c) ↔ (idx (ix2 (j 0) 0)).toInt = (n.val : ℤ) ∧ (j 2).val = c.val := by
  rw [resultIdx?_eq_some_iff]
  have hs := siIdx3 d huw hiw hsd hiv j
  have hj1 : (j 1).val < 1 := (j 1).isLt
  obtain ⟨uw, iw, sd, iv, wf⟩ := d
  simp only at huw hiw hsd hiv
  subst huw hiw hsd hiv
  have s0 : ScatterDims.start ⟨[1, 2], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1, 2], [0], [0], 1, wf⟩ j idx 1 = 0 := by
    unfold ScatterDims.start
    rw [dif_neg (by simp)]
  have s2 : ScatterDims.start ⟨[1, 2], [0], [0], 1, wf⟩ j idx 2 = 0 := by
    unfold ScatterDims.start
    rw [dif_neg (by simp)]
  have w0 : ScatterDims.window ⟨[1, 2], [0], [0], 1, wf⟩ j 0 = 0 := by
    unfold ScatterDims.window
    rw [dif_neg (by simp [ScatterDims.sKept, Shape.kept])]
  have w1 : ScatterDims.window ⟨[1, 2], [0], [0], 1, wf⟩ j 1 = (j 1).val := by
    unfold ScatterDims.window
    rw [dif_pos (by simp [ScatterDims.sKept, Shape.kept])]
    rfl
  have w2 : ScatterDims.window ⟨[1, 2], [0], [0], 1, wf⟩ j 2 = (j 2).val := by
    unfold ScatterDims.window
    rw [dif_pos (by simp [ScatterDims.sKept, Shape.kept])]
    rfl
  constructor
  · intro h
    have h0 := h 0
    have h2 := h 2
    rw [s0, w0] at h0
    rw [s2, w2] at h2
    have h0' : (idx (ix2 (j 0) 0)).toInt + ((0 : ℕ) : ℤ) = (n.val : ℤ) := h0
    have h2' : (0 : ℤ) + (((j 2).val : ℕ) : ℤ) = (c.val : ℤ) := h2
    exact ⟨by omega, by omega⟩
  · rintro ⟨h0, h2⟩ a
    match a with
    | ⟨0, _⟩ =>
      show ScatterDims.start ⟨[1, 2], [0], [0], 1, wf⟩ j idx 0
        + ((ScatterDims.window ⟨[1, 2], [0], [0], 1, wf⟩ j 0 : ℕ) : ℤ) = (n.val : ℤ)
      rw [s0, w0]
      omega
    | ⟨1, _⟩ =>
      show ScatterDims.start ⟨[1, 2], [0], [0], 1, wf⟩ j idx 1
        + ((ScatterDims.window ⟨[1, 2], [0], [0], 1, wf⟩ j 1 : ℕ) : ℤ) = ((0 : ℕ) : ℤ)
      rw [s1, w1]
      omega
    | ⟨2, _⟩ =>
      show ScatterDims.start ⟨[1, 2], [0], [0], 1, wf⟩ j idx 2
        + ((ScatterDims.window ⟨[1, 2], [0], [0], 1, wf⟩ j 2 : ℕ) : ℤ) = (c.val : ℤ)
      rw [s2, w2]
      omega

end Rank3

/-- Rows scattered into a vector: element `n` gains the updates of the rows whose start index is `n`. -/
theorem scatterAdd_rows1 {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  unfold Ideal.hostScatterAdd
  congr 1
  symm
  apply Finset.sum_nbij (fun e => ix1 e)
  · intro e he
    rw [Finset.mem_filter] at he ⊢
    refine ⟨Finset.mem_univ _, ?_⟩
    rw [resultIdx1_iff d huw hiw hsd hiv]
    exact he.2
  · intro e1 _ e2 _ h
    exact congrFun h 0
  · intro j hj
    rw [Finset.mem_coe, Finset.mem_filter, resultIdx1_iff d huw hiw hsd hiv] at hj
    refine ⟨j 0, ?_, ?_⟩
    · exact Finset.mem_coe.2 (Finset.mem_filter.2 ⟨Finset.mem_univ _, hj.2⟩)
    · exact (eq_ix1 j).symm
  · intro e _
    rfl

/-- Rows scattered into a matrix: element `(n, c)` gains column `c` of the rows whose start index is `n`. -/
theorem scatterAdd_rows2 {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e ∈ Finset.univ.filter (fun e : Fin E => (idx (ix2 e 0)).toInt = (n.val : ℤ)), upd (ix2 e c) := by
  unfold Ideal.hostScatterAdd
  congr 1
  symm
  apply Finset.sum_nbij (fun e => ix2 e c)
  · intro e he
    rw [Finset.mem_filter] at he ⊢
    refine ⟨Finset.mem_univ _, ?_⟩
    rw [resultIdx2_iff d huw hiw hsd hiv]
    exact ⟨he.2, rfl⟩
  · intro e1 _ e2 _ h
    exact congrFun h 0
  · intro j hj
    rw [Finset.mem_coe, Finset.mem_filter, resultIdx2_iff d huw hiw hsd hiv] at hj
    refine ⟨j 0, ?_, ?_⟩
    · exact Finset.mem_coe.2 (Finset.mem_filter.2 ⟨Finset.mem_univ _, hj.2.1⟩)
    · have hc : j 1 = c := Fin.ext hj.2.2
      rw [← hc]
      exact (eq_ix2 j).symm
  · intro e _
    rfl

/-- Rows scattered into a rank-3 array with a unit middle axis: element `(n, 0, c)` gains element `(e, 0, c)`
    of the rows `e` whose start index is `n`. -/
theorem scatterAdd_rows3 {N E C w : Nat} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : (⟨3, ![N, 1, C]⟩ : Shape).Idx → EReal) (idx : IVec ⟨2, ![E, 1]⟩ w) (upd : (⟨3, ![E, 1, C]⟩ : Shape).Idx → EReal)
    (n : Fin N) (c : Fin C) :
    Ideal.hostScatterAdd d x idx upd (ix3 n 0 c)
      = x (ix3 n 0 c) + ∑ e ∈ Finset.univ.filter (fun e : Fin E => (idx (ix2 e 0)).toInt = (n.val : ℤ)), upd (ix3 e 0 c) := by
  unfold Ideal.hostScatterAdd
  congr 1
  symm
  apply Finset.sum_nbij (fun e => ix3 e 0 c)
  · intro e he
    rw [Finset.mem_filter] at he ⊢
    refine ⟨Finset.mem_univ _, ?_⟩
    rw [resultIdx3_iff d huw hiw hsd hiv]
    exact ⟨he.2, rfl⟩
  · intro e1 _ e2 _ h
    exact congrFun h 0
  · intro j hj
    rw [Finset.mem_coe, Finset.mem_filter, resultIdx3_iff d huw hiw hsd hiv] at hj
    refine ⟨j 0, ?_, ?_⟩
    · exact Finset.mem_coe.2 (Finset.mem_filter.2 ⟨Finset.mem_univ _, hj.2.1⟩)
    · have hj1 : (j 1).val < 1 := (j 1).isLt
      have hb : j 1 = (0 : Fin 1) := Fin.ext (Nat.lt_one_iff.1 hj1)
      have hc : j 2 = c := Fin.ext hj.2.2
      rw [← hb, ← hc]
      exact (eq_ix3 j).symm
  · intro e _
    rfl

/-! ## The same, stated of the host operation at the ideal instance

The host's accumulating scatter is, at the ideal instance, the exact sum by definition, whatever the shapes; the
three element forms above follow for it. -/

/-- At the ideal instance the host's accumulating scatter is the exact sum. -/
theorem host_scatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- Rows scattered into a vector by the host operation: element `n` gains the updates of the rows whose start index is `n`. -/
theorem host_scatterAdd_rows1 {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) :=
  (congrFun (host_scatterAdd_eq d x idx upd) (ix1 n)).trans (scatterAdd_rows1 d huw hiw hsd hiv x idx upd n)

/-- Rows scattered into a matrix by the host operation: element `(n, c)` gains column `c` of the rows whose start index is `n`. -/
theorem host_scatterAdd_rows2 {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) d x idx upd (ix2 n c)
      = x (ix2 n c) + ∑ e ∈ Finset.univ.filter (fun e : Fin E => (idx (ix2 e 0)).toInt = (n.val : ℤ)), upd (ix2 e c) :=
  (congrFun (host_scatterAdd_eq d x idx upd) (ix2 n c)).trans (scatterAdd_rows2 d huw hiw hsd hiv x idx upd n c)

/-- Rows scattered into a rank-3 array with a unit middle axis by the host operation: element `(n, 0, c)` gains element
    `(e, 0, c)` of the rows `e` whose start index is `n`. -/
theorem host_scatterAdd_rows3 {N E C w : Nat} {φ : FTy} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : FVec Ideal ⟨3, ![N, 1, C]⟩ φ) (idx : IVec ⟨2, ![E, 1]⟩ w) (upd : FVec Ideal ⟨3, ![E, 1, C]⟩ φ) (n : Fin N) (c : Fin C) :
    Host.scatterAdd (F := Ideal) d x idx upd (ix3 n 0 c)
      = x (ix3 n 0 c) + ∑ e ∈ Finset.univ.filter (fun e : Fin E => (idx (ix2 e 0)).toInt = (n.val : ℤ)), upd (ix3 e 0 c) :=
  (congrFun (host_scatterAdd_eq d x idx upd) (ix3 n 0 c)).trans (scatterAdd_rows3 d huw hiw hsd hiv x idx upd n c)

end Cert.ScatterRows

end
-- ==== Proof.LibGatherVector.lean ====
/-
  A host gather of single elements of a vector, read at one element: x[idx] for a vector of shape [N] and start
  indices of shape [E, 1] (one position per result element).  The result [E] holds at e the operand's element r,
  where r is the start index of e read as a signed integer and clamped into [0, N - 1] — the same row the gather of
  whole rows of a matrix reads (the companion file on rows, whose `row` this statement uses).
-/
import Idealize.ShloMosaic.PureOps.ShapeOps
import Idealize.ShloMosaic.Lib.ValueIdx
import proofs.«155296_j67216238182417_2_alg».proof.Proof.LibGatherRows

namespace Cert.GatherVector

open Idealize.ShloMosaic Idealize.ShloMosaic.ValueIdx

variable {α : Type} {N E w : Nat}

/-- The dimension numbers of x[idx] on a vector: its one axis collapsed and indexed, no axis carried over. -/
abbrev elemsDims (N E : Nat) (sb : List (Fin 2))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

theorem elemsDims_apply (hN : 0 < N) (sb : List (Fin 2))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (elemsDims N E sb wf) x idx (ix1 e) = x (ix1 (Cert.GatherRows.row hN idx e)) := by
  unfold Host.gather
  congr 1
  funext a
  refine Fin.ext ?_
  match a with
  | ⟨0, _⟩ =>
    show (elemsDims N E sb wf).start (ix1 e) idx 0 + (elemsDims N E sb wf).batchCoord (ix1 e) 0
      + (elemsDims N E sb wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (elemsDims N E sb wf).startIndexMap from List.mem_singleton.mpr rfl)]
    have hsi : (elemsDims N E sb wf).siIdx (ix1 e) ⟨List.idxOf (0 : Fin 1) (elemsDims N E sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- Elements of a vector gathered: result e is the operand at the row of e. -/
theorem gather_elems1 (hN : 0 < N) (d : GatherDims ⟨1, ![N]⟩ ⟨2, ![E, 1]⟩ ⟨1, ![E]⟩)
    (hod : d.offsetDims = []) (hcs : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 (Cert.GatherRows.row hN idx e)) := by
  obtain ⟨od, cs, ob, sb, sm, iv, ss, wf⟩ := d
  simp only at hod hcs hob hsm hiv hss
  subst hod hcs hob hsm hiv hss
  exact elemsDims_apply hN sb wf x idx e

end Cert.GatherVector
-- ==== Proof.LayerEntries.lean ====
/-
  One entry of a graph-convolution layer, read off each program's operations.

  For a node `j` let the landing set be the edges whose destination position, read as a signed integer, is `j`: the
  scatter-add gives entry (j, k) the operand's entry plus the sum over the landing set of the update rows' column k.
  A gather of rows at the start-index column built from the sources gives, for edge e, the row of the source read signed and
  clamped.  A broadcast along a unit axis reads the single entry.  With these, entry (j, k) of the kernel's layer is

      d[j] · (0 + Σ_{e lands on j} w[e] · y[row(e), k]) + b[k]

  (rectified for the wide layer), and entry (j, k) of the reference's is

      (0 + Σ_{e lands on j} ((δ[row(e)] · w[e]) · δ[rowDst(e)]) · xw[row(e), k]) + b[k].
-/
import proofs.«155296_j67216238182417_2_alg».proof.Proof.BridgeFacts
import proofs.«155296_j67216238182417_2_alg».proof.Proof.LibScatterRows
import proofs.«155296_j67216238182417_2_alg».proof.Proof.LibGatherVector

noncomputable section

namespace Cert.Bridge

open Cert.KernelIdeal Cert.KernelIdeal.Gen Cert.KernelIdeal.HostChain
open Idealize.ShloMosaic Idealize.ShloMosaic.ValueIdx

/-- There is at least one node. -/
theorem nodes_pos : 0 < 100000 := by decide

/-- A broadcast of the zero constant reads zero everywhere. -/
theorem zeros_apply {t : Shape} (h : (⟨0, ![]⟩ : Shape).BroadcastsInDim t ![]) (i : t.Idx) :
    (broadcastInDim t ![] h (constant (F := Ideal) ⟨0, ![]⟩ .f32 0x00000000#32) : FVec Ideal t .f32) i = 0 :=
  (Cert.HostLayout.broadcastInDim_scalar_apply _ _ i).trans Ideal.ofBits_zero_f32

/-! ## The kernel's layers at an entry -/

/-- The wide layer at entry (j, k). -/
theorem layerWide_entry (y : FVec Ideal S100000x64 .f32) (dcol : FVec Ideal S100000x1 .f32) (ew : FVec Ideal S3300000 .f32)
    (src dst : IVec S3300000 32) (b : FVec Ideal S64 .f32) (j : Fin 100000) (k : Fin 64) :
    layerWide y dcol ew src dst b (ix2 j k)
      = max (dcol (ix2 j (0 : Fin 1)) * (0 + ∑ e ∈ (Finset.univ.filter (fun e : Fin 3300000 => ((broadcastInDim S3300000x1 ![0] bcast_S3300000_S3300000x1_0 dst : IVec S3300000x1 32) (ix2 e (0 : Fin 1))).toInt = ((j).val : ℤ))), ew (ix1 e) * y (ix2 (Cert.GatherRows.row nodes_pos (startCol src) e) k))
          + b (ix1 k)) 0 := by
  unfold layerWide
  rw [maximumf_apply, addf_apply, mulf_apply, Cert.HostLayout.broadcastInDim_a1_ab_apply,
    Cert.ScatterRows.host_scatterAdd_rows2 _ rfl rfl rfl rfl, zeros_apply,
    Cert.HostLayout.broadcastInDim_1b_ab_apply, Cert.HostLayout.broadcastInDim_b_1b_apply]
  refine congrArg (fun s => max (dcol (ix2 j (0 : Fin 1)) * (0 + s) + b (ix1 k)) 0) (Finset.sum_congr rfl fun e _ => ?_)
  rw [mulf_apply, Cert.HostLayout.broadcastInDim_a1_ab_apply, Cert.HostLayout.broadcastInDim_a_a1_apply, extf_apply,
    Cert.GatherRows.gather_rows2 nodes_pos _ rfl rfl rfl rfl rfl rfl, truncf_apply]

/-- The narrow layer at entry (j, u). -/
theorem layerNarrow_entry (y : FVec Ideal S100000x1 .f32) (dcol : FVec Ideal S100000x1 .f32) (ew : FVec Ideal S3300000 .f32)
    (src dst : IVec S3300000 32) (b : FVec Ideal S1 .f32) (j : Fin 100000) (u : Fin 1) :
    layerNarrow y dcol ew src dst b (ix2 j u)
      = dcol (ix2 j u) * (0 + ∑ e ∈ (Finset.univ.filter (fun e : Fin 3300000 => ((broadcastInDim S3300000x1 ![0] bcast_S3300000_S3300000x1_0 dst : IVec S3300000x1 32) (ix2 e (0 : Fin 1))).toInt = ((j).val : ℤ))), ew (ix1 e) * y (ix2 (Cert.GatherRows.row nodes_pos (startCol src) e) u))
          + b (ix1 u) := by
  unfold layerNarrow
  rw [addf_apply, mulf_apply, Cert.ScatterRows.host_scatterAdd_rows2 _ rfl rfl rfl rfl, zeros_apply,
    Cert.HostLayout.broadcastInDim_1b_ab_apply, Cert.HostLayout.broadcastInDim_b_1b_apply]
  refine congrArg (fun s => dcol (ix2 j u) * (0 + s) + b (ix1 u)) (Finset.sum_congr rfl fun e _ => ?_)
  rw [mulf_apply, Cert.HostLayout.broadcastInDim_a_a1_apply, extf_apply,
    Cert.GatherRows.gather_rows2 nodes_pos _ rfl rfl rfl rfl rfl rfl, truncf_apply]

/-! ## The reference's layers at an entry -/

/-- The reference's rectified first layer at entry (j, k). -/
theorem refWide_entry (x0 : FVec Ideal S100000x128 .f32) (x1 : IVec S2x3200000 32) (x2 : FVec Ideal S3200000 .f32)
    (x3 : FVec Ideal S128x64 .f32) (x4 : FVec Ideal S64 .f32) (j : Fin 100000) (k : Fin 64) :
    Cert.ReferenceIdeal.Read.val_main_v51 (F := Ideal) x0 x1 x2 x3 x4 (ix2 j k)
      = max ((0 + ∑ e ∈ (Finset.univ.filter (fun e : Fin 3300000 => ((broadcastInDim S3300000x1 ![0] bcast_S3300000_S3300000x1_0 (Cert.ReferenceIdeal.Read.val_main_v6 (F := Ideal) x1) : IVec S3300000x1 32) (ix2 e (0 : Fin 1))).toInt = ((j).val : ℤ))),
            (((Cert.ReferenceIdeal.Read.val_main_v18 (F := Ideal) x1 x2) (ix1 (Cert.GatherRows.row nodes_pos (startCol (Cert.ReferenceIdeal.Read.val_main_v3 (F := Ideal) x1)) e)) * (Cert.ReferenceIdeal.Read.val_main_v8 (F := Ideal) x2) (ix1 e)) * (Cert.ReferenceIdeal.Read.val_main_v18 (F := Ideal) x1 x2) (ix1 (Cert.GatherRows.row nodes_pos (startCol (Cert.ReferenceIdeal.Read.val_main_v6 (F := Ideal) x1)) e)))
              * Host.dotGeneral (F := Ideal) Cert.ReferenceIdeal.dot_S100000x128_S128x64_S100000x64_1_0_0_1_n_n none x0 x3 (ix2 (Cert.GatherRows.row nodes_pos (startCol (Cert.ReferenceIdeal.Read.val_main_v3 (F := Ideal) x1)) e) k))
          + x4 (ix1 k)) 0 := by
  unfold Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_v46
    Cert.ReferenceIdeal.Read.val_main_v45 Cert.ReferenceIdeal.Read.val_main_cst_9 Cert.ReferenceIdeal.Read.val_main_call1_v0 Cert.ReferenceIdeal.Read.val_main_call1_cst
  rw [maximumf_apply, addf_apply, Cert.ScatterRows.host_scatterAdd_rows2 _ rfl rfl rfl rfl, zeros_apply,
    Cert.HostLayout.broadcastInDim_1b_ab_apply, Cert.HostLayout.broadcastInDim_b_1b_apply]
  refine congrArg (fun s => max ((0 + s) + x4 (ix1 k)) 0) (Finset.sum_congr rfl fun e _ => ?_)
  unfold Cert.ReferenceIdeal.Read.val_main_v44 Cert.ReferenceIdeal.Read.val_main_v43 Cert.ReferenceIdeal.Read.val_main_v42 Cert.ReferenceIdeal.Read.val_main_v35 Cert.ReferenceIdeal.Read.val_main_v34 Cert.ReferenceIdeal.Read.val_main_v33
    Cert.ReferenceIdeal.Read.val_main_v26 Cert.ReferenceIdeal.Read.val_main_v25 Cert.ReferenceIdeal.Read.val_main_v9
  rw [refStart_src1, refStart_src2, refStart_dst]
  rw [mulf_apply, Cert.HostLayout.broadcastInDim_a1_ab_apply, Cert.HostLayout.broadcastInDim_a_a1_apply, mulf_apply,
    mulf_apply, Cert.GatherVector.gather_elems1 nodes_pos _ rfl rfl rfl rfl rfl rfl,
    Cert.GatherVector.gather_elems1 nodes_pos _ rfl rfl rfl rfl rfl rfl,
    Cert.GatherRows.gather_rows2 nodes_pos _ rfl rfl rfl rfl rfl rfl]

/-- The reference's result at entry (j, u). -/
theorem refNarrow_entry (x0 : FVec Ideal S100000x128 .f32) (x1 : IVec S2x3200000 32) (x2 : FVec Ideal S3200000 .f32)
    (x3 : FVec Ideal S128x64 .f32) (x4 : FVec Ideal S64 .f32) (x5 : FVec Ideal S64x1 .f32) (x6 : FVec Ideal S1 .f32) (j : Fin 100000) (u : Fin 1) :
    Cert.ReferenceIdeal.Read.val_main_v92 (F := Ideal) x0 x1 x2 x3 x4 x5 x6 (ix2 j u)
      = (0 + ∑ e ∈ (Finset.univ.filter (fun e : Fin 3300000 => ((broadcastInDim S3300000x1 ![0] bcast_S3300000_S3300000x1_0 (Cert.ReferenceIdeal.Read.val_main_v6 (F := Ideal) x1) : IVec S3300000x1 32) (ix2 e (0 : Fin 1))).toInt = ((j).val : ℤ))),
            (((Cert.ReferenceIdeal.Read.val_main_v18 (F := Ideal) x1 x2) (ix1 (Cert.GatherRows.row nodes_pos (startCol (Cert.ReferenceIdeal.Read.val_main_v3 (F := Ideal) x1)) e)) * (Cert.ReferenceIdeal.Read.val_main_v8 (F := Ideal) x2) (ix1 e)) * (Cert.ReferenceIdeal.Read.val_main_v18 (F := Ideal) x1 x2) (ix1 (Cert.GatherRows.row nodes_pos (startCol (Cert.ReferenceIdeal.Read.val_main_v6 (F := Ideal) x1)) e)))
              * Host.dotGeneral (F := Ideal) (φ₁ := .f32) Cert.ReferenceIdeal.dot_S100000x64_S64x1_S100000x1_1_0_0_1_n_n none (Cert.ReferenceIdeal.Read.val_main_v51 (F := Ideal) x0 x1 x2 x3 x4 : FVec Ideal S100000x64 .f32) x5 (ix2 (Cert.GatherRows.row nodes_pos (startCol (Cert.ReferenceIdeal.Read.val_main_v3 (F := Ideal) x1)) e) u))
          + x6 (ix1 u) := by
  unfold Cert.ReferenceIdeal.Read.val_main_v92 Cert.ReferenceIdeal.Read.val_main_v91 Cert.ReferenceIdeal.Read.val_main_v90 Cert.ReferenceIdeal.Read.val_main_v89 Cert.ReferenceIdeal.Read.val_main_v88 Cert.ReferenceIdeal.Read.val_main_v87
    Cert.ReferenceIdeal.Read.val_main_cst_20
  rw [addf_apply, Cert.ScatterRows.host_scatterAdd_rows2 _ rfl rfl rfl rfl, zeros_apply,
    Cert.HostLayout.broadcastInDim_1b_ab_apply, Cert.HostLayout.broadcastInDim_b_1b_apply]
  refine congrArg (fun s => (0 + s) + x6 (ix1 u)) (Finset.sum_congr rfl fun e _ => ?_)
  unfold Cert.ReferenceIdeal.Read.val_main_v86 Cert.ReferenceIdeal.Read.val_main_v85 Cert.ReferenceIdeal.Read.val_main_v78 Cert.ReferenceIdeal.Read.val_main_v77 Cert.ReferenceIdeal.Read.val_main_v76 Cert.ReferenceIdeal.Read.val_main_v69
    Cert.ReferenceIdeal.Read.val_main_v68 Cert.ReferenceIdeal.Read.val_main_v52
  rw [refStart_src3, refStart_src4, refStart_dst2, refDinv_again]
  rw [mulf_apply, Cert.HostLayout.broadcastInDim_a_a1_apply, mulf_apply, mulf_apply,
    Cert.GatherVector.gather_elems1 nodes_pos _ rfl rfl rfl rfl rfl rfl,
    Cert.GatherVector.gather_elems1 nodes_pos _ rfl rfl rfl rfl rfl rfl,
    Cert.GatherRows.gather_rows2 nodes_pos _ rfl rfl rfl rfl rfl rfl]

end Cert.Bridge

end
-- ==== Proof.LayerBridge.lean ====
/-
  The two programs compute the same function of the argument arrays.

  Layer by layer, entry by entry, the kernel's arrangement (node rows scaled by the inverse-root degree before the
  gather, the aggregated row scaled by the destination's inverse-root degree after the scatter-add) and the reference's
  (one coefficient per edge) are joined by the law of `GcnLaw`: the destination's factor, a nonnegative extended real
  other than `⊤`, moves into the sum over the edges landing on the node, and on those edges the reference's
  destination factor is that same node's.  The rectified first layer being equal, the second layer's two products are
  equal, and the same law joins the second layer.
-/
import proofs.«155296_j67216238182417_2_alg».proof.Proof.LayerEntries
import proofs.«155296_j67216238182417_2_alg».proof.Proof.KValue
import proofs.«155296_j67216238182417_2_alg».proof.Proof.LibColumnLayout

noncomputable section

namespace Cert.Bridge

open Cert.KernelIdeal Cert.KernelIdeal.Gen Cert.KernelIdeal.HostChain Cert.KernelIdeal.RegionArrays
open Idealize.ShloMosaic Idealize.ShloMosaic.ValueIdx

/-- The inverse-root degree column reads the vector's entry. -/
theorem dcol_apply (x1 : IVec S2x3200000 32) (x2 : FVec Ideal S3200000 .f32) (r : Fin 100000) (u : Fin 1) :
    (shapeCast S100000x1 (Cert.ReferenceIdeal.Read.val_main_v18 (F := Ideal) x1 x2) shapeCasts_S100000_S100000x1 : FVec Ideal S100000x1 .f32) (ix2 r u) = (Cert.ReferenceIdeal.Read.val_main_v18 (F := Ideal) x1 x2) (ix1 r) :=
  Cert.ColumnLayout.shapeCast_a_a1_apply _ _ r u

/-- The rectified first layer: the kernel's is the reference's. -/
theorem wide_eq (x0 : FVec Ideal S100000x128 .f32) (x1 : IVec S2x3200000 32) (x2 : FVec Ideal S3200000 .f32)
    (x3 : FVec Ideal S128x64 .f32) (x4 : FVec Ideal S64 .f32) :
    layerWide (rowsScaled0 x0 x3 (shapeCast S100000x1 (Cert.ReferenceIdeal.Read.val_main_v18 (F := Ideal) x1 x2) shapeCasts_S100000_S100000x1 : FVec Ideal S100000x1 .f32)) (shapeCast S100000x1 (Cert.ReferenceIdeal.Read.val_main_v18 (F := Ideal) x1 x2) shapeCasts_S100000_S100000x1 : FVec Ideal S100000x1 .f32) (Cert.ReferenceIdeal.Read.val_main_v8 (F := Ideal) x2) (Cert.ReferenceIdeal.Read.val_main_v3 (F := Ideal) x1) (Cert.ReferenceIdeal.Read.val_main_v6 (F := Ideal) x1) x4 = (Cert.ReferenceIdeal.Read.val_main_v51 (F := Ideal) x0 x1 x2 x3 x4) := by
  funext i
  obtain ⟨j, k, rfl⟩ : ∃ (j : Fin 100000) (k : Fin 64), i = ix2 j k := ⟨i 0, i 1, eq_ix2 i⟩
  rw [layerWide_entry, refWide_entry]
  refine congrArg (fun t => max t 0) ?_
  have hY : ∀ r : Fin 100000, rowsScaled0 x0 x3 (shapeCast S100000x1 (Cert.ReferenceIdeal.Read.val_main_v18 (F := Ideal) x1 x2) shapeCasts_S100000_S100000x1 : FVec Ideal S100000x1 .f32) (ix2 r k)
      = Host.dotGeneral (F := Ideal) Cert.ReferenceIdeal.dot_S100000x128_S128x64_S100000x64_1_0_0_1_n_n none x0 x3 (ix2 r k) * (Cert.ReferenceIdeal.Read.val_main_v18 (F := Ideal) x1 x2) (ix1 r) := fun r => by
    rw [wideProduct_entry, ← dcol_apply x1 x2 r 0]
    rfl
  simp only [hY, dcol_apply x1 x2]
  exact Cert.GcnLaw.layer_entry _ _ (dinv_entry x1 x2 j).1 (dinv_entry x1 x2 j).2
    (fun e => (Cert.ReferenceIdeal.Read.val_main_v8 (F := Ideal) x2) (ix1 e))
    (fun e => Host.dotGeneral (F := Ideal) Cert.ReferenceIdeal.dot_S100000x128_S128x64_S100000x64_1_0_0_1_n_n none x0 x3 (ix2 (Cert.GatherRows.row nodes_pos (startCol (Cert.ReferenceIdeal.Read.val_main_v3 (F := Ideal) x1)) e) k))
    (fun e => (Cert.ReferenceIdeal.Read.val_main_v18 (F := Ideal) x1 x2) (ix1 (Cert.GatherRows.row nodes_pos (startCol (Cert.ReferenceIdeal.Read.val_main_v3 (F := Ideal) x1)) e)))
    (fun e => (Cert.ReferenceIdeal.Read.val_main_v18 (F := Ideal) x1 x2) (ix1 (Cert.GatherRows.row nodes_pos (startCol (Cert.ReferenceIdeal.Read.val_main_v6 (F := Ideal) x1)) e)))
    (fun e he => by rw [show (Cert.GatherRows.row nodes_pos (startCol (Cert.ReferenceIdeal.Read.val_main_v6 (F := Ideal) x1)) e) = j from landed_row (Cert.ReferenceIdeal.Read.val_main_v6 (F := Ideal) x1) e j (Finset.mem_filter.mp he).2])
    (x4 (ix1 k))

/-- The second layer over an arbitrary hidden array: the kernel's is the reference's. -/
theorem narrow_eq (x0 : FVec Ideal S100000x128 .f32) (x1 : IVec S2x3200000 32) (x2 : FVec Ideal S3200000 .f32)
    (x3 : FVec Ideal S128x64 .f32) (x4 : FVec Ideal S64 .f32) (x5 : FVec Ideal S64x1 .f32) (x6 : FVec Ideal S1 .f32) :
    layerNarrow (rowsScaled1 (Cert.ReferenceIdeal.Read.val_main_v51 (F := Ideal) x0 x1 x2 x3 x4 : FVec Ideal S100000x64 .f32) x5 (shapeCast S100000x1 (Cert.ReferenceIdeal.Read.val_main_v18 (F := Ideal) x1 x2) shapeCasts_S100000_S100000x1 : FVec Ideal S100000x1 .f32)) (shapeCast S100000x1 (Cert.ReferenceIdeal.Read.val_main_v18 (F := Ideal) x1 x2) shapeCasts_S100000_S100000x1 : FVec Ideal S100000x1 .f32) (Cert.ReferenceIdeal.Read.val_main_v8 (F := Ideal) x2) (Cert.ReferenceIdeal.Read.val_main_v3 (F := Ideal) x1) (Cert.ReferenceIdeal.Read.val_main_v6 (F := Ideal) x1) x6
      = Cert.ReferenceIdeal.Read.val_main_v92 (F := Ideal) x0 x1 x2 x3 x4 x5 x6 := by
  funext i
  obtain ⟨j, u, rfl⟩ : ∃ (j : Fin 100000) (u : Fin 1), i = ix2 j u := ⟨i 0, i 1, eq_ix2 i⟩
  rw [layerNarrow_entry, refNarrow_entry]
  have hY : ∀ r : Fin 100000, rowsScaled1 (Cert.ReferenceIdeal.Read.val_main_v51 (F := Ideal) x0 x1 x2 x3 x4 : FVec Ideal S100000x64 .f32) x5 (shapeCast S100000x1 (Cert.ReferenceIdeal.Read.val_main_v18 (F := Ideal) x1 x2) shapeCasts_S100000_S100000x1 : FVec Ideal S100000x1 .f32) (ix2 r u)
      = Host.dotGeneral (F := Ideal) (φ₁ := .f32) Cert.ReferenceIdeal.dot_S100000x64_S64x1_S100000x1_1_0_0_1_n_n none (Cert.ReferenceIdeal.Read.val_main_v51 (F := Ideal) x0 x1 x2 x3 x4 : FVec Ideal S100000x64 .f32) x5 (ix2 r u) * (Cert.ReferenceIdeal.Read.val_main_v18 (F := Ideal) x1 x2) (ix1 r) := fun r => by
    rw [narrowProduct_entry, ← dcol_apply x1 x2 r 0]
    rfl
  simp only [hY, dcol_apply x1 x2]
  exact Cert.GcnLaw.layer_entry _ _ (dinv_entry x1 x2 j).1 (dinv_entry x1 x2 j).2
    (fun e => (Cert.ReferenceIdeal.Read.val_main_v8 (F := Ideal) x2) (ix1 e))
    (fun e => Host.dotGeneral (F := Ideal) (φ₁ := .f32) Cert.ReferenceIdeal.dot_S100000x64_S64x1_S100000x1_1_0_0_1_n_n none (Cert.ReferenceIdeal.Read.val_main_v51 (F := Ideal) x0 x1 x2 x3 x4 : FVec Ideal S100000x64 .f32) x5 (ix2 (Cert.GatherRows.row nodes_pos (startCol (Cert.ReferenceIdeal.Read.val_main_v3 (F := Ideal) x1)) e) u))
    (fun e => (Cert.ReferenceIdeal.Read.val_main_v18 (F := Ideal) x1 x2) (ix1 (Cert.GatherRows.row nodes_pos (startCol (Cert.ReferenceIdeal.Read.val_main_v3 (F := Ideal) x1)) e)))
    (fun e => (Cert.ReferenceIdeal.Read.val_main_v18 (F := Ideal) x1 x2) (ix1 (Cert.GatherRows.row nodes_pos (startCol (Cert.ReferenceIdeal.Read.val_main_v6 (F := Ideal) x1)) e)))
    (fun e he => by rw [show (Cert.GatherRows.row nodes_pos (startCol (Cert.ReferenceIdeal.Read.val_main_v6 (F := Ideal) x1)) e) = j from landed_row (Cert.ReferenceIdeal.Read.val_main_v6 (F := Ideal) x1) e j (Finset.mem_filter.mp he).2])
    (x6 (ix1 u))

/-- The kernel's result of the argument arrays is the reference's. -/
theorem value_eq (m : (ℓ : Loc nD τ sig) → Buf (Elt Ideal) ℓ) (c : Dev nD) :
    kernelValue m c = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (congrArg (fun h : FVec Ideal S100000x64 .f32 =>
      layerNarrow (rowsScaled1 h (m ((c.tc : Thread nD τ).loc main_arg5)) (dinvColumn m c)) (dinvColumn m c) (Cert.ReferenceIdeal.Read.val_main_v8 (F := Ideal) (m ((c.tc : Thread nD τ).loc main_arg2))) (Cert.ReferenceIdeal.Read.val_main_v3 (F := Ideal) (m ((c.tc : Thread nD τ).loc main_arg1))) (Cert.ReferenceIdeal.Read.val_main_v6 (F := Ideal) (m ((c.tc : Thread nD τ).loc main_arg1))) (m ((c.tc : Thread nD τ).loc main_arg6)))
    (wide_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans
    (narrow_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))

end Cert.Bridge

end
-- ==== Proof.lean ====
/-
  A two-layer graph convolution: the kernel against its reference, over the extended reals.

  Both programs append a self-loop of weight one to every node, compute every node's weighted in-degree by a
  scatter-add over the destinations, and take the guarded inverse-root degree `δ` (the reciprocal square root of the
  degree where it is positive, zero elsewhere).  A layer with weight `W` and bias `b` sends node features `x` to

      out[j, k] = Σ_{e lands on j} δ[src e] · w[e] · δ[j] · (x W)[src e, k] + b[k].

  The reference forms the coefficient `δ[src e] · w[e] · δ[dst e]` edge by edge.  The kernel computes `δ[r] · (x W)[r, k]`
  in a pipelined region — twenty blocks of 5000 rows, each row of the product scaled by its own factor —, gathers and
  weights those rows, scatter-adds them, and scales the aggregated row by `δ[j]` afterwards.  The first layer is
  rectified; the second has one output column.  On the extended reals a change of float format is the identity and a
  matrix product is the plain sum, so the two differ only in where the factor `δ[j]` sits, and `δ[j]`, a nonnegative
  extended real other than `⊤`, distributes over the sum.  No finiteness of the inputs is used.

  The three programs run (terminate, fault-free, arguments unchanged): the kernel's two programs by their generated
  frames, the reference by its generated run.  The idealization rewrote nothing, so it preserves the kernel trivially.
  The kernel's result is read off its run through the host stretches and the two regions' arrays (`KRun`, `KStretches`,
  `RegionArrays`, `KValue`), the reference's off its generated run, and the two are joined entry by entry
  (`BridgeFacts`, `LayerEntries`, `LayerBridge`, over the law in `GcnLaw`).
-/
import proofs.«155296_j67216238182417_2_alg».proof.Defs
import proofs.«155296_j67216238182417_2_alg».proof.Proof.Gen.Kernel
import proofs.«155296_j67216238182417_2_alg».proof.Proof.Gen.Kernel.Skeleton
import proofs.«155296_j67216238182417_2_alg».proof.Proof.Gen.Kernel.Launch
import proofs.«155296_j67216238182417_2_alg».proof.Proof.Gen.Kernel.Points
import proofs.«155296_j67216238182417_2_alg».proof.Proof.Gen.Kernel.Frame
import proofs.«155296_j67216238182417_2_alg».proof.Proof.Gen.KernelIdeal
import proofs.«155296_j67216238182417_2_alg».proof.Proof.Gen.KernelIdeal.Skeleton
import proofs.«155296_j67216238182417_2_alg».proof.Proof.Gen.KernelIdeal.Launch
import proofs.«155296_j67216238182417_2_alg».proof.Proof.Gen.KernelIdeal.Points
import proofs.«155296_j67216238182417_2_alg».proof.Proof.Gen.KernelIdeal.Frame
import proofs.«155296_j67216238182417_2_alg».proof.Proof.Gen.ReferenceIdeal
import proofs.«155296_j67216238182417_2_alg».proof.Proof.Gen.Pre_finite_inputs
import proofs.«155296_j67216238182417_2_alg».proof.Proof.Gen.ReferenceIdeal.Run
import proofs.«155296_j67216238182417_2_alg».proof.Proof.Gen.ReferenceIdeal.Read
import proofs.«155296_j67216238182417_2_alg».proof.Proof.KRun
import proofs.«155296_j67216238182417_2_alg».proof.Proof.KValue
import proofs.«155296_j67216238182417_2_alg».proof.Proof.LayerBridge
import Idealize.ShloMosaic.Adequacy
import Idealize.ShloMosaic.Init

noncomputable section

namespace Cert.Proof

open Idealize.ShloMosaic Idealize.SL.Sem

/-- The two idealized programs, run from memories that agree on the arguments, both end, with the kernel's result
    — the fold's final contents at the result buffer, which is `kernelValue` of the arguments — equal to the
    reference's composed term of the same arguments. -/
theorem algebraic : Cert.algebraic_KernelIdeal_ReferenceIdeal := by
  intro m ρ m' ρ' _ hagree
  refine ⟨fun c => Cert.KernelIdeal.HostChain.kernelValue m c, ?_, ?_⟩
  · exact (θ_run Cert.KernelIdeal.defs _ _).mono
      (fun _ h c => ⟨(h c).1.trans (Cert.KernelIdeal.HostChain.result_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v92_eq, h0, h1, h2, h3, h4, h5, h6]
    exact (Cert.Bridge.value_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
